-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192x768 : Shape := ⟨3, ![8, 8192, 768]⟩
abbrev S384x768 : Shape := ⟨2, ![384, 768]⟩
abbrev S768x384 : Shape := ⟨2, ![768, 384]⟩
abbrev S768 : Shape := ⟨1, ![768]⟩
abbrev S384 : Shape := ⟨1, ![384]⟩
abbrev S_ : Shape := ⟨0, ![]⟩

class Facts : Prop where
  bcast_S_S8x8192x768 : S_.BroadcastsInDim S8x8192x768 (![] : Fin 0 → Fin S8x8192x768.rank)
  reducesTo_S8x8192x768_S_d0_1_2 : S8x8192x768.ReducesTo [0, 1, 2] S_
  h_S_ : 0 < S_.numel
  bcast_S_S384x768 : S_.BroadcastsInDim S384x768 (![] : Fin 0 → Fin S384x768.rank)
  reducesTo_S384x768_S_d0_1 : S384x768.ReducesTo [0, 1] S_
  bcast_S_S768x384 : S_.BroadcastsInDim S768x384 (![] : Fin 0 → Fin S768x384.rank)
  reducesTo_S768x384_S_d0_1 : S768x384.ReducesTo [0, 1] S_
  bcast_S_S768 : S_.BroadcastsInDim S768 (![] : Fin 0 → Fin S768.rank)
  reducesTo_S768_S_d0 : S768.ReducesTo [0] S_
  bcast_S_S384 : S_.BroadcastsInDim S384 (![] : Fin 0 → Fin S384.rank)
  reducesTo_S384_S_d0 : S384.ReducesTo [0] S_

variable [Facts]

def fn_part1 {F : FTy → Type} [FloatOps F] (main_arg4 : FVec F S768 .f32) (main_arg5 : FVec F S384 .f32) (main_arg6 : FVec F S384 .f32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S384 .f32 := Host.absf main_arg5
  let main_cst_8 : FVec F S_ .f32 := constant S_ .f32 0x7F800000#32
  let main_v25 : FVec F S384 .f32 := broadcastInDim S384 ![] bcast_S_S384 main_cst_8
  let main_v26 : IVec S384 1 := cmpf .olt main_v24 main_v25
  let main_c_9 : IVec S_ 1 := constantI S_ 1 1#1
  let main_v27 : IVec S_ 1 := (fun x v => Host.reduce IntOp.andi x v reducesTo_S384_S_d0 h_S_) main_v26 main_c_9
  let main_v28 : IVec S_ 1 := andi main_v23 main_v27
  let main_v29 : FVec F S384 .f32 := Host.absf main_arg6
  let main_cst_10 : FVec F S_ .f32 := constant S_ .f32 0x7F800000#32
  let main_v30 : FVec F S384 .f32 := broadcastInDim S384 ![] bcast_S_S384 main_cst_10
  let main_v31 : IVec S384 1 := cmpf .olt main_v29 main_v30
  let main_c_11 : IVec S_ 1 := constantI S_ 1 1#1
  let main_v32 : IVec S_ 1 := (fun x v => Host.reduce IntOp.andi x v reducesTo_S384_S_d0 h_S_) main_v31 main_c_11
  let main_v33 : IVec S_ 1 := andi main_v28 main_v32
  main_v33

def fn {F : FTy → Type} [FloatOps F] (main_arg0 : FVec F S8x8192x768 .f32) (main_arg1 : FVec F S384x768 .f32) (main_arg2 : FVec F S768x384 .f32) (main_arg3 : FVec F S768 .f32) (main_arg4 : FVec F S768 .f32) (main_arg5 : FVec F S384 .f32) (main_arg6 : FVec F S384 .f32) : IVec S_ 1 :=
  let main_v0 : FVec F S8x8192x768 .f32 := Host.absf main_arg0
  let main_cst : FVec F S_ .f32 := constant S_ .f32 0x7F800000#32
  let main_v1 : FVec F S8x8192x768 .f32 := broadcastInDim S8x8192x768 ![] bcast_S_S8x8192x768 main_cst
  let main_v2 : IVec S8x8192x768 1 := cmpf .olt main_v0 main_v1
  let main_c : IVec S_ 1 := constantI S_ 1 1#1
  let main_v3 : IVec S_ 1 := (fun x v => Host.reduce IntOp.andi x v reducesTo_S8x8192x768_S_d0_1_2 h_S_) main_v2 main_c
  let main_v4 : FVec F S384x768 .f32 := Host.absf main_arg1
  let main_cst_0 : FVec F S_ .f32 := constant S_ .f32 0x7F800000#32
  let main_v5 : FVec F S384x768 .f32 := broadcastInDim S384x768 ![] bcast_S_S384x768 main_cst_0
  let main_v6 : IVec S384x768 1 := cmpf .olt main_v4 main_v5
  let main_c_1 : IVec S_ 1 := constantI S_ 1 1#1
  let main_v7 : IVec S_ 1 := (fun x v => Host.reduce IntOp.andi x v reducesTo_S384x768_S_d0_1 h_S_) main_v6 main_c_1
  let main_v8 : IVec S_ 1 := andi main_v3 main_v7
  let main_v9 : FVec F S768x384 .f32 := Host.absf main_arg2
  let main_cst_2 : FVec F S_ .f32 := constant S_ .f32 0x7F800000#32
  let main_v10 : FVec F S768x384 .f32 := broadcastInDim S768x384 ![] bcast_S_S768x384 main_cst_2
  let main_v11 : IVec S768x384 1 := cmpf .olt main_v9 main_v10
  let main_c_3 : IVec S_ 1 := constantI S_ 1 1#1
  let main_v12 : IVec S_ 1 := (fun x v => Host.reduce IntOp.andi x v reducesTo_S768x384_S_d0_1 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg4 main_arg5 main_arg6 main_v13 main_v16
-- ==== Kernel.lean ====
abbrev S8x8192x768 : Shape := ⟨3, ![8, 8192, 768]⟩
abbrev S384x768 : Shape := ⟨2, ![384, 768]⟩
abbrev S768x384 : Shape := ⟨2, ![768, 384]⟩
abbrev S768 : Shape := ⟨1, ![768]⟩
abbrev S384 : Shape := ⟨1, ![384]⟩
abbrev S65536x768 : Shape := ⟨2, ![65536, 768]⟩
abbrev S1x768 : Shape := ⟨2, ![1, 768]⟩
abbrev S1x384 : Shape := ⟨2, ![1, 384]⟩
abbrev S1024x768 : Shape := ⟨2, ![1024, 768]⟩
abbrev S1024 : Shape := ⟨1, ![1024]⟩
abbrev S1024x1 : Shape := ⟨2, ![1024, 1]⟩
abbrev S1024x384 : Shape := ⟨2, ![1024, 384]⟩

abbrev nBuf : Space → Nat
  | .hbm => 22
  | .vmem => 10
  | .smem => 0
  | _ => 0

abbrev bufTy : (tb : Table) → Fin (tcTables nBuf tb) → BufTy
  | .hbm, ⟨0, _⟩ => ⟨S8x8192x768, .f32⟩
  | .hbm, ⟨1, _⟩ => ⟨S384x768, .f32⟩
  | .hbm, ⟨2, _⟩ => ⟨S768x384, .f32⟩
  | .hbm, ⟨3, _⟩ => ⟨S768, .f32⟩
  | .hbm, ⟨4, _⟩ => ⟨S768, .f32⟩
  | .hbm, ⟨5, _⟩ => ⟨S384, .f32⟩
  | .hbm, ⟨6, _⟩ => ⟨S384, .f32⟩
  | .hbm, ⟨7, _⟩ => ⟨S65536x768, .f32⟩
  | .hbm, ⟨8, _⟩ => ⟨S768x384, .f32⟩
  | .hbm, ⟨9, _⟩ => ⟨S768x384, .bf16⟩
  | .hbm, ⟨10, _⟩ => ⟨S384x768, .f32⟩
  | .hbm, ⟨11, _⟩ => ⟨S384x768, .bf16⟩
  | .hbm, ⟨12, _⟩ => ⟨S768, .bf16⟩
  | .hbm, ⟨13, _⟩ => ⟨S1x768, .bf16⟩
  | .hbm, ⟨14, _⟩ => ⟨S768, .bf16⟩
  | .hbm, ⟨15, _⟩ => ⟨S1x768, .bf16⟩
  | .hbm, ⟨16, _⟩ => ⟨S384, .bf16⟩
  | .hbm, ⟨17, _⟩ => ⟨S1x384, .bf16⟩
  | .hbm, ⟨18, _⟩ => ⟨S384, .bf16⟩
  | .hbm, ⟨19, _⟩ => ⟨S1x384, .bf16⟩
  | .hbm, ⟨20, _⟩ => ⟨S65536x768, .f32⟩
  | .hbm, ⟨21, _⟩ => ⟨S8x8192x768, .f32⟩
  | .local _ .vmem, ⟨0, _⟩ => ⟨S1024x768, .f32⟩
  | .local _ .vmem, ⟨1, _⟩ => ⟨S1024x768, .f32⟩
  | .local _ .vmem, ⟨2, _⟩ => ⟨S768x384, .bf16⟩
  | .local _ .vmem, ⟨3, _⟩ => ⟨S384x768, .bf16⟩
  | .local _ .vmem, ⟨4, _⟩ => ⟨S1x768, .bf16⟩
  | .local _ .vmem, ⟨5, _⟩ => ⟨S1x768, .bf16⟩
  | .local _ .vmem, ⟨6, _⟩ => ⟨S1x384, .bf16⟩
  | .local _ .vmem, ⟨7, _⟩ => ⟨S1x384, .bf16⟩
  | .local _ .vmem, ⟨8, _⟩ => ⟨S1024x768, .f32⟩
  | .local _ .vmem, ⟨9, _⟩ => ⟨S1024x768, .f32⟩
  | _, _ => ⟨S8x8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_v0 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S384x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S8x8192x768_S65536x768 : S8x8192x768.ShapeCasts S65536x768
  transposes_S384x768_S768x384_1_0 : S384x768.Transposes [1, 0] S768x384
  bitsLt_bf16_f32 : FTy.bits .bf16 < FTy.bits .f32
  transposes_S768x384_S384x768_1_0 : S768x384.Transposes [1, 0] S384x768
  shapeCasts_S768_S1x768 : S768.ShapeCasts S1x768
  shapeCasts_S384_S1x384 : S384.ShapeCasts S1x384
  shapeCasts_S65536x768_S8x8192x768 : S65536x768.ShapeCasts S8x8192x768
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  reduces_S1024x768_S1024 : S1024x768.Reduces [1] S1024
  shapeCasts_S1024_S1024x1 : S1024.ShapeCasts S1024x1
  broadcasts_S1024x1_S1024x768 : S1024x1.Broadcasts S1024x768
  broadcasts_S1x768_S1024x768 : S1x768.Broadcasts S1024x768
  inb_S768x384_S768x384_0_0 : ∀ a, (![0, 0] : Fin 2 → Nat) a + S768x384.size a ≤ S768x384.size a
  h_S768x384 : 0 < S768x384.numel
  shapeCasts_S768x384_S768x384 : S768x384.ShapeCasts S768x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  reduces_S1024x384_S1024 : S1024x384.Reduces [1] S1024
  broadcasts_S1024x1_S1024x384 : S1024x1.Broadcasts S1024x384
  broadcasts_S1x384_S1024x384 : S1x384.Broadcasts S1024x384
  inb_S384x768_S384x768_0_0 : ∀ a, (![0, 0] : Fin 2 → Nat) a + S384x768.size a ≤ S384x768.size a
  h_S384x768 : 0 < S384x768.numel
  shapeCasts_S384x768_S384x768 : S384x768.ShapeCasts S384x768
  dot_S1024x768_S768x384_S1024x384_1_0_0_1_n_n_wf : DotDims.WF S1024x768 S768x384 S1024x384 [1] [0] [0] [1] [] []
  dot_S1024x384_S384x768_S1024x768_1_0_0_1_n_n_wf : DotDims.WF S1024x384 S384x768 S1024x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S65536x768.size a
  hwx0_0 : ∀ i : grid0.Coords, EltTy.bits .f32 = 32 ∨ (Rect.block (s := S65536x768) S1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x384.size a ≤ S768x384.size a
  hwx0_1 : ∀ i : grid0.Coords, EltTy.bits .bf16 = 32 ∨ (Rect.block (s := S768x384) S768x384.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S384x768.size a ≤ S384x768.size a
  hwx0_2 : ∀ i : grid0.Coords, EltTy.bits .bf16 = 32 ∨ (Rect.block (s := S384x768) S384x768.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x768.size a ≤ S1x768.size a
  hwx0_3 : ∀ i : grid0.Coords, EltTy.bits .bf16 = 32 ∨ (Rect.block (s := S1x768) S1x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x768.size a ≤ S1x768.size a
  hwx0_4 : ∀ i : grid0.Coords, EltTy.bits .bf16 = 32 ∨ (Rect.block (s := S1x768) S1x768.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x384.size a ≤ S1x384.size a
  hwx0_5 : ∀ i : grid0.Coords, EltTy.bits .bf16 = 32 ∨ (Rect.block (s := S1x384) S1x384.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x384.size a ≤ S1x384.size a
  hwx0_6 : ∀ i : grid0.Coords, EltTy.bits .bf16 = 32 ∨ (Rect.block (s := S1x384) S1x384.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x768.size a ≤ S65536x768.size a
  hwx0_7 : ∀ i : grid0.Coords, EltTy.bits .f32 = 32 ∨ (Rect.block (s := S65536x768) S1024x768.size (cc0_transform_7 i) (hinb0_7 i)).WholeWords (EltTy.packing .f32)

variable [Facts₀]

def dot_S1024x768_S768x384_S1024x384_1_0_0_1_n_n : DotDims S1024x768 S768x384 S1024x384 where
  lhsContracting := [1]
  rhsContracting := [0]
  lhsNonContracting := [0]
  rhsNonContracting := [1]
  lhsBatch := []
  rhsBatch := []
  wf := dot_S1024x768_S768x384_S1024x384_1_0_0_1_n_n_wf
def dot_S1024x384_S384x768_S1024x768_1_0_0_1_n_n : DotDims S1024x384 S384x768 S1024x768 where
  lhsContracting := [1]
  rhsContracting := [0]
  lhsNonContracting := [0]
  rhsNonContracting := [1]
  lhsBatch := []
  rhsBatch := []
  wf := dot_S1024x384_S384x768_S1024x768_1_0_0_1_n_n_wf

abbrev win0_0 : Pipeline.Window sig grid0 :=
  Pipeline.Window.ofSpec (Memref.whole main_call0_v0) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v2) S768x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v4) S384x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v6) S1x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v8) S1x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v10) S1x384.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v12) S1x384.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v13) S1024x768.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x8192x768 : Shape := ⟨3, ![8, 8192, 768]⟩
abbrev S384x768 : Shape := ⟨2, ![384, 768]⟩
abbrev S768x384 : Shape := ⟨2, ![768, 384]⟩
abbrev S768 : Shape := ⟨1, ![768]⟩
abbrev S384 : Shape := ⟨1, ![384]⟩
abbrev S_ : Shape := ⟨0, ![]⟩
abbrev S8x8192 : Shape := ⟨2, ![8, 8192]⟩
abbrev S8x8192x1 : Shape := ⟨3, ![8, 8192, 1]⟩
abbrev S1x1x768 : Shape := ⟨3, ![1, 1, 768]⟩
abbrev S8x8192x384 : Shape := ⟨3, ![8, 8192, 384]⟩
abbrev S1x1x384 : Shape := ⟨3, ![1, 1, 384]⟩

abbrev nBuf : Space → Nat
  | .hbm => 86
  | .vmem => 0
  | .smem => 0
  | _ => 0

abbrev bufTy : (tb : Table) → Fin (tcTables nBuf tb) → BufTy
  | .hbm, ⟨0, _⟩ => ⟨S8x8192x768, .f32⟩
  | .hbm, ⟨1, _⟩ => ⟨S384x768, .f32⟩
  | .hbm, ⟨2, _⟩ => ⟨S768x384, .f32⟩
  | .hbm, ⟨3, _⟩ => ⟨S768, .f32⟩
  | .hbm, ⟨4, _⟩ => ⟨S768, .f32⟩
  | .hbm, ⟨5, _⟩ => ⟨S384, .f32⟩
  | .hbm, ⟨6, _⟩ => ⟨S384, .f32⟩
  | .hbm, ⟨7, _⟩ => ⟨S_, .f32⟩
  | .hbm, ⟨8, _⟩ => ⟨S8x8192, .f32⟩
  | .hbm, ⟨9, _⟩ => ⟨S8x8192x1, .f32⟩
  | .hbm, ⟨10, _⟩ => ⟨S_, .f32⟩
  | .hbm, ⟨11, _⟩ => ⟨S8x8192x1, .f32⟩
  | .hbm, ⟨12, _⟩ => ⟨S8x8192x1, .f32⟩
  | .hbm, ⟨13, _⟩ => ⟨S8x8192x768, .f32⟩
  | .hbm, ⟨14, _⟩ => ⟨S8x8192x768, .f32⟩
  | .hbm, ⟨15, _⟩ => ⟨S8x8192x768, .f32⟩
  | .hbm, ⟨16, _⟩ => ⟨S_, .f32⟩
  | .hbm, ⟨17, _⟩ => ⟨S8x8192, .f32⟩
  | .hbm, ⟨18, _⟩ => ⟨S8x8192x1, .f32⟩
  | .hbm, ⟨19, _⟩ => ⟨S_, .f32⟩
  | .hbm, ⟨20, _⟩ => ⟨S8x8192x1, .f32⟩
  | .hbm, ⟨21, _⟩ => ⟨S8x8192x1, .f32⟩
  | .hbm, ⟨22, _⟩ => ⟨S8x8192x768, .f32⟩
  | .hbm, ⟨23, _⟩ => ⟨S8x8192x768, .f32⟩
  | .hbm, ⟨24, _⟩ => ⟨S_, .f32⟩
  | .hbm, ⟨25, _⟩ => ⟨S8x8192x1, .f32⟩
  | .hbm, ⟨26, _⟩ => ⟨S8x8192x1, .f32⟩
  | .hbm, ⟨27, _⟩ => ⟨S8x8192x1, .f32⟩
  | .hbm, ⟨28, _⟩ => ⟨S8x8192x768, .f32⟩
  | .hbm, ⟨29, _⟩ => ⟨S8x8192x768, .f32⟩
  | .hbm, ⟨30, _⟩ => ⟨S1x1x768, .f32⟩
  | .hbm, ⟨31, _⟩ => ⟨S8x8192x768, .f32⟩
  | .hbm, ⟨32, _⟩ => ⟨S8x8192x768, .f32⟩
  | .hbm, ⟨33, _⟩ => ⟨S1x1x768, .f32⟩
  | .hbm, ⟨34, _⟩ => ⟨S8x8192x768, .f32⟩
  | .hbm, ⟨35, _⟩ => ⟨S8x8192x768, .f32⟩
  | .hbm, ⟨36, _⟩ => ⟨S8x8192x384, .f32⟩
  | .hbm, ⟨37, _⟩ => ⟨S8x8192x384, .f32⟩
  | .hbm, ⟨38, _⟩ => ⟨S8x8192x384, .f32⟩
  | .hbm, ⟨39, _⟩ => ⟨S_, .f32⟩
  | .hbm, ⟨40, _⟩ => ⟨S8x8192x384, .f32⟩
  | .hbm, ⟨41, _⟩ => ⟨S8x8192x384, .f32⟩
  | .hbm, ⟨42, _⟩ => ⟨S_, .f32⟩
  | .hbm, ⟨43, _⟩ => ⟨S8x8192x384, .f32⟩
  | .hbm, ⟨44, _⟩ => ⟨S8x8192x384, .f32⟩
  | .hbm, ⟨45, _⟩ => ⟨S8x8192x384, .f32⟩
  | .hbm, ⟨46, _⟩ => ⟨S_, .f32⟩
  | .hbm, ⟨47, _⟩ => ⟨S8x8192, .f32⟩
  | .hbm, ⟨48, _⟩ => ⟨S8x8192x1, .f32⟩
  | .hbm, ⟨49, _⟩ => ⟨S_, .f32⟩
  | .hbm, ⟨50, _⟩ => ⟨S8x8192x1, .f32⟩
  | .hbm, ⟨51, _⟩ => ⟨S8x8192x1, .f32⟩
  | .hbm, ⟨52, _⟩ => ⟨S8x8192x384, .f32⟩
  | .hbm, ⟨53, _⟩ => ⟨S8x8192x384, .f32⟩
  | .hbm, ⟨54, _⟩ => ⟨S8x8192x384, .f32⟩
  | .hbm, ⟨55, _⟩ => ⟨S_, .f32⟩
  | .hbm, ⟨56, _⟩ => ⟨S8x8192, .f32⟩
  | .hbm, ⟨57, _⟩ => ⟨S8x8192x1, .f32⟩
  | .hbm, ⟨58, _⟩ => ⟨S_, .f32⟩
  | .hbm, ⟨59, _⟩ => ⟨S8x8192x1, .f32⟩
  | .hbm, ⟨60, _⟩ => ⟨S8x8192x1, .f32⟩
  | .hbm, ⟨61, _⟩ => ⟨S8x8192x384, .f32⟩
  | .hbm, ⟨62, _⟩ => ⟨S8x8192x384, .f32⟩
  | .hbm, ⟨63, _⟩ => ⟨S_, .f32⟩
  | .hbm, ⟨64, _⟩ => ⟨S8x8192x1, .f32⟩
  | .hbm, ⟨65, _⟩ => ⟨S8x8192x1, .f32⟩
  | .hbm, ⟨66, _⟩ => ⟨S8x8192x1, .f32⟩
  | .hbm, ⟨67, _⟩ => ⟨S8x8192x384, .f32⟩
  | .hbm, ⟨68, _⟩ => ⟨S8x8192x384, .f32⟩
  | .hbm, ⟨69, _⟩ => ⟨S1x1x384, .f32⟩
  | .hbm, ⟨70, _⟩ => ⟨S8x8192x384, .f32⟩
  | .hbm, ⟨71, _⟩ => ⟨S8x8192x384, .f32⟩
  | .hbm, ⟨72, _⟩ => ⟨S1x1x384, .f32⟩
  | .hbm, ⟨73, _⟩ => ⟨S8x8192x384, .f32⟩
  | .hbm, ⟨74, _⟩ => ⟨S8x8192x384, .f32⟩
  | .hbm, ⟨75, _⟩ => ⟨S8x8192x768, .f32⟩
  | .hbm, ⟨76, _⟩ => ⟨S8x8192x768, .f32⟩
  | .hbm, ⟨77, _⟩ => ⟨S8x8192x768, .f32⟩
  | .hbm, ⟨78, _⟩ => ⟨S_, .f32⟩
  | .hbm, ⟨79, _⟩ => ⟨S8x8192x768, .f32⟩
  | .hbm, ⟨80, _⟩ => ⟨S8x8192x768, .f32⟩
  | .hbm, ⟨81, _⟩ => ⟨S_, .f32⟩
  | .hbm, ⟨82, _⟩ => ⟨S8x8192x768, .f32⟩
  | .hbm, ⟨83, _⟩ => ⟨S8x8192x768, .f32⟩
  | .hbm, ⟨84, _⟩ => ⟨S8x8192x768, .f32⟩
  | .hbm, ⟨85, _⟩ => ⟨S8x8192x768, .f32⟩
  | _, _ => ⟨S8x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_11 : Ref sig .tc := ⟨.hbm, 78, rfl⟩
abbrev main_v59 : Ref sig .tc := ⟨.hbm, 79, rfl⟩
abbrev main_v60 : Ref sig .tc := ⟨.hbm, 80, rfl⟩
abbrev main_cst_12 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩

abbrev nD : Nat := 1
abbrev τ : Topo := Topo.v7x

variable {F : FTy → Type} [FloatOps F]

class Facts₀ : Prop where
  reducesTo_S8x8192x768_S8x8192_d2 : S8x8192x768.ReducesTo [2] S8x8192
  h_S_ : 0 < S_.numel
  bcast_S8x8192_S8x8192x1_0_1 : S8x8192.BroadcastsInDim S8x8192x1 (![0, 1] : Fin 2 → Fin S8x8192x1.rank)
  bcast_S_S8x8192x1 : S_.BroadcastsInDim S8x8192x1 (![] : Fin 0 → Fin S8x8192x1.rank)
  bcast_S8x8192x1_S8x8192x768_0_1_2 : S8x8192x1.BroadcastsInDim S8x8192x768 (![0, 1, 2] : Fin 3 → Fin S8x8192x768.rank)
  bcast_S768_S1x1x768_2 : S768.BroadcastsInDim S1x1x768 (![2] : Fin 1 → Fin S1x1x768.rank)
  bcast_S1x1x768_S8x8192x768_0_1_2 : S1x1x768.BroadcastsInDim S8x8192x768 (![0, 1, 2] : Fin 3 → Fin S8x8192x768.rank)
  bcast_S_S8x8192x384 : S_.BroadcastsInDim S8x8192x384 (![] : Fin 0 → Fin S8x8192x384.rank)
  reducesTo_S8x8192x384_S8x8192_d2 : S8x8192x384.ReducesTo [2] S8x8192
  bcast_S8x8192x1_S8x8192x384_0_1_2 : S8x8192x1.BroadcastsInDim S8x8192x384 (![0, 1, 2] : Fin 3 → Fin S8x8192x384.rank)
  bcast_S384_S1x1x384_2 : S384.BroadcastsInDim S1x1x384 (![2] : Fin 1 → Fin S1x1x384.rank)
  bcast_S1x1x384_S8x8192x384_0_1_2 : S1x1x384.BroadcastsInDim S8x8192x384 (![0, 1, 2] : Fin 3 → Fin S8x8192x384.rank)
  bcast_S_S8x8192x768 : S_.BroadcastsInDim S8x8192x768 (![] : Fin 0 → Fin S8x8192x768.rank)
  dot_S8x8192x768_S384x768_S8x8192x384_2_1_01_0_n_n_wf : DotDims.WF S8x8192x768 S384x768 S8x8192x384 [2] [1] [0, 1] [0] [] []
  dot_S8x8192x384_S768x384_S8x8192x768_2_1_01_0_n_n_wf : DotDims.WF S8x8192x384 S768x384 S8x8192x768 [2] [1] [0, 1] [0] [] []

variable [Facts₀]

def dot_S8x8192x768_S384x768_S8x8192x384_2_1_01_0_n_n : DotDims S8x8192x768 S384x768 S8x8192x384 where
  lhsContracting := [2]
  rhsContracting := [1]
  lhsNonContracting := [0, 1]
  rhsNonContracting := [0]
  lhsBatch := []
  rhsBatch := []
  wf := dot_S8x8192x768_S384x768_S8x8192x384_2_1_01_0_n_n_wf
def dot_S8x8192x384_S768x384_S8x8192x768_2_1_01_0_n_n : DotDims S8x8192x384 S768x384 S8x8192x768 where
  lhsContracting := [2]
  rhsContracting := [1]
  lhsNonContracting := [0, 1]
  rhsNonContracting := [0]
  lhsBatch := []
  rhsBatch := []
  wf := dot_S8x8192x384_S768x384_S8x8192x768_2_1_01_0_n_n_wf

class Facts : Prop extends Facts₀ where

variable [Facts]
-- ==== Proof.Spec.lean ====
/-
  The mathematics of the residual two-layer network, on the extended reals, with no program in sight.

  A row `x` of length `n` is normalised as `(x k - μ) · (v + ε)^(-1/2) · g k + b k` with `μ = (Σ x) / c`, where the
  variance `v` is spelt in one of two ways:
    * `varK`:  `(Σ x²) / c - μ · μ`            (mean of squares minus square of mean),
    * `varR`:  `(Σ (x - μ)²) / c`              (mean of squared deviations).
  On REAL rows, and when the divisor `c` is the row length `n`, the two are one number (`var_eq`): expanding the square,
  `Σ (x - μ)² = Σ x² - 2 μ Σ x + n μ² = Σ x² - (Σ x)² / n`. At an infinite entry the identity fails (the extended reals
  do not distribute), so every use of it carries a proof that the row is real; for the second layer that proof is
  derived: a normalised real row is real (`v + ε > 0`, so the inverse square root is a real), a finite sum of products
  of reals is real, and `t · (1 + e^{-t})^{-1}` of a real is real.

  `rowNet var₁ var₂` is the whole network on one row, the variance spelling a parameter:
  normalise (768), contract with `w1` (768 → 384), `t ↦ t · σ(t)`, normalise (384), contract with `w2` (384 → 768),
  `t ↦ t · σ(t)`, add the row back. `rowNet_eq`: on real `x, w1, g1, b1` the two spellings give one function.
-/
import Idealize.ShloMosaic.PureOps.Ideal
import Idealize.ShloMosaic.PureOps.Ideal.Laws
import Idealize.ShloMosaic.Lib.ValueIdx

noncomputable section

namespace Cert.ResLn

open Idealize.ShloMosaic Idealize.ShloMosaic.ValueIdx
open scoped BigOperators

/-! ## The four float constants the two programs spell -/

/-- `768.0` denotes the real `768`. -/
theorem ofBits_768 : Ideal.ofBits .f32 0x44400000#32 = ((768 : ℝ) : EReal) := by
  simp [Ideal.ofBits, Ideal.ieee, -EReal.coe_mul]; norm_num

/-- `384.0` denotes the real `384`. -/
theorem ofBits_384 : Ideal.ofBits .f32 0x43C00000#32 = ((384 : ℝ) : EReal) := by
  simp [Ideal.ofBits, Ideal.ieee, -EReal.coe_mul]; norm_num

/-- `1.0` denotes `1`. -/
theorem ofBits_one : Ideal.ofBits .f32 0x3F800000#32 = 1 := by
  simp [Ideal.ofBits, Ideal.ieee, -EReal.coe_mul]; norm_num

/-- The stabiliser `ε` (the float nearest `10⁻⁵`) denotes the dyadic rational `10995116 / 2⁴⁰`. -/
theorem ofBits_eps : Ideal.ofBits .f32 0x3727C5AC#32 = ((10995116 / 2 ^ 40 : ℝ) : EReal) := by
  simp [Ideal.ofBits, Ideal.ieee, -EReal.coe_mul]; norm_num

/-- The stabiliser as both programs write it. -/
abbrev eps : EReal := Ideal.ofBits .f32 0x3727C5AC#32
/-- The first layer's divisor as both programs write it. -/
abbrev c768 : EReal := Ideal.ofBits .f32 0x44400000#32
/-- The second layer's divisor as both programs write it. -/
abbrev c384 : EReal := Ideal.ofBits .f32 0x43C00000#32

/-! ## The row operations -/

/-- The mean of a row with divisor `c`. -/
def mean {n : ℕ} (c : EReal) (x : Fin n → EReal) : EReal := Ideal.div (∑ k, x k) c

/-- Variance as mean of squares minus square of mean. -/
def varK {n : ℕ} (c : EReal) (x : Fin n → EReal) : EReal :=
  Ideal.div (∑ k, x k * x k) c - mean c x * mean c x

/-- Variance as mean of squared deviations. -/
def varR {n : ℕ} (c : EReal) (x : Fin n → EReal) : EReal :=
  Ideal.div (∑ k, (x k - mean c x) * (x k - mean c x)) c

/-- One entry `xk` of a row normalised with the row's variance `v` and mean `mu`, scaled by `gk` and shifted by `bk`. -/
def lnorm (v mu xk gk bk : EReal) : EReal :=
  (xk - mu) * Ideal.rsqrt (v + eps) * gk + bk

/-- `t · σ(t)`. -/
def swish (t : EReal) : EReal := t * Ideal.logistic t

/-- The hidden row: normalise `x`, contract with `w1`, apply `t ↦ t · σ(t)`. -/
def hidden (var1 : (Fin 768 → EReal) → EReal) (x : Fin 768 → EReal) (w1 : Fin 384 → Fin 768 → EReal)
    (g1 b1 : Fin 768 → EReal) (j : Fin 384) : EReal :=
  swish (∑ k, lnorm (var1 x) (mean c768 x) (x k) (g1 k) (b1 k) * w1 j k)

/-- The output entry `d` from a hidden row `h`: normalise `h`, contract with row `d` of `w2`, apply `t ↦ t · σ(t)`, add the
    input entry `xd` back. -/
def outRow (var2 : (Fin 384 → EReal) → EReal) (h : Fin 384 → EReal) (w2 : Fin 768 → Fin 384 → EReal)
    (g2 b2 : Fin 384 → EReal) (xd : EReal) (d : Fin 768) : EReal :=
  swish (∑ j, lnorm (var2 h) (mean c384 h) (h j) (g2 j) (b2 j) * w2 d j) + xd

/-- The whole network on one row. -/
def rowNet (var1 : (Fin 768 → EReal) → EReal) (var2 : (Fin 384 → EReal) → EReal) (x : Fin 768 → EReal)
    (w1 : Fin 384 → Fin 768 → EReal) (w2 : Fin 768 → Fin 384 → EReal) (g1 b1 : Fin 768 → EReal)
    (g2 b2 : Fin 384 → EReal) (d : Fin 768) : EReal :=
  outRow var2 (hidden var1 x w1 g1 b1) w2 g2 b2 (x d) d

/-! ## Real rows -/

/-- A finite sum of reals, taken in the extended reals, is the real sum. -/
theorem sum_coe {n : ℕ} (r : Fin n → ℝ) : ∑ k, ((r k : ℝ) : EReal) = ((∑ k, r k : ℝ) : EReal) := by
  refine Finset.induction_on (Finset.univ : Finset (Fin n)) (by simp) ?_
  intro a s ha ih
  rw [Finset.sum_insert ha, Finset.sum_insert ha, ih, EReal.coe_add]

/-- A real divided by a nonzero real. -/
theorem div_real (a : ℝ) {c : ℝ} (hc : c ≠ 0) : Ideal.div (a : EReal) (c : EReal) = ((a / c : ℝ) : EReal) := by
  rw [Ideal.div_coe hc, ← EReal.coe_mul, mul_one_div]

/-- The variance identity on the reals: the divisor must be the count. -/
theorem real_var (n : ℕ) (hn : (n : ℝ) ≠ 0) (r : Fin n → ℝ) :
    (∑ k, r k * r k) / n - (∑ k, r k) / n * ((∑ k, r k) / n)
      = (∑ k, (r k - (∑ j, r j) / n) * (r k - (∑ j, r j) / n)) / n := by
  have h : ∑ k, (r k - (∑ j, r j) / n) * (r k - (∑ j, r j) / n)
      = ∑ k, r k * r k - 2 * ((∑ j, r j) / n) * ∑ k, r k + n * (((∑ j, r j) / n) * ((∑ j, r j) / n)) := by
    generalize (∑ j, r j) / (n : ℝ) = μ
    simp only [sub_mul, mul_sub, Finset.sum_sub_distrib, Finset.sum_const, Finset.card_univ, Fintype.card_fin,
      ← Finset.mul_sum, ← Finset.sum_mul, nsmul_eq_mul]
    ring
  rw [h]; field_simp; ring

/-- The mean of a real row. -/
theorem mean_real {n : ℕ} (hn : (n : ℝ) ≠ 0) (r : Fin n → ℝ) :
    mean ((n : ℝ) : EReal) (fun k => (r k : EReal)) = (((∑ k, r k) / n : ℝ) : EReal) := by
  unfold mean; rw [sum_coe, div_real _ hn]

/-- The reference's variance of a real row, as a real. -/
theorem varR_real {n : ℕ} (hn : (n : ℝ) ≠ 0) (r : Fin n → ℝ) :
    varR ((n : ℝ) : EReal) (fun k => (r k : EReal))
      = (((∑ k, (r k - (∑ j, r j) / n) * (r k - (∑ j, r j) / n)) / n : ℝ) : EReal) := by
  unfold varR; rw [mean_real hn]
  simp only [← EReal.coe_sub, ← EReal.coe_mul]
  rw [sum_coe, div_real _ hn]

/-- On a real row, with the divisor the row's length, the two spellings of the variance agree. -/
theorem var_eq {n : ℕ} (hn : (n : ℝ) ≠ 0) (c : EReal) (hc : c = ((n : ℝ) : EReal)) (x : Fin n → EReal)
    (hx : ∀ k, ∃ r : ℝ, x k = r) : varK c x = varR c x := by
  choose r hr using hx
  obtain rfl : x = fun k => (r k : EReal) := funext hr
  subst hc
  rw [varR_real hn]
  unfold varK; rw [mean_real hn]
  simp only [← EReal.coe_mul]
  rw [sum_coe, div_real _ hn, ← EReal.coe_sub, real_var n hn]

/-- A real row normalised (reference spelling) with real scale and shift is real: the variance is a nonnegative real, so
    `v + ε` is a positive real and its inverse square root a real. -/
theorem lnorm_real {n : ℕ} (hn : (n : ℝ) ≠ 0) (c : EReal) (hc : c = ((n : ℝ) : EReal)) (x g b : Fin n → EReal)
    (hx : ∀ k, ∃ r : ℝ, x k = r) (hg : ∀ k, ∃ r : ℝ, g k = r) (hb : ∀ k, ∃ r : ℝ, b k = r) (k : Fin n) :
    ∃ r : ℝ, lnorm (varR c x) (mean c x) (x k) (g k) (b k) = r := by
  choose r hr using hx
  obtain rfl : x = fun k => (r k : EReal) := funext hr
  obtain ⟨gk, hgk⟩ := hg k
  obtain ⟨bk, hbk⟩ := hb k
  subst hc
  unfold lnorm
  rw [varR_real hn, mean_real hn, hgk, hbk]
  show ∃ r' : ℝ, _ * Ideal.rsqrt (_ + Ideal.ofBits .f32 0x3727C5AC#32) * _ + _ = _
  rw [ofBits_eps, ← EReal.coe_add, ← EReal.coe_sub]
  have hpos : (0 : ℝ) < (∑ k, (r k - (∑ j, r j) / n) * (r k - (∑ j, r j) / n)) / n + 10995116 / 2 ^ 40 := by
    have h0 : (0 : ℝ) ≤ ∑ k, (r k - (∑ j, r j) / n) * (r k - (∑ j, r j) / n) :=
      Finset.sum_nonneg fun k _ => mul_self_nonneg _
    have hn' : (0 : ℝ) < n := lt_of_le_of_ne (Nat.cast_nonneg n) (Ne.symm hn)
    have : (0 : ℝ) ≤ (∑ k, (r k - (∑ j, r j) / n) * (r k - (∑ j, r j) / n)) / n := div_nonneg h0 hn'.le
    positivity
  rw [Ideal.rsqrt_coe, if_neg (not_lt.2 hpos.le), if_neg hpos.ne', ← EReal.coe_mul, ← EReal.coe_mul, ← EReal.coe_add]
  exact ⟨_, rfl⟩

/-- `t · σ(t)` of a real is real. -/
theorem swish_real (t : ℝ) : ∃ r : ℝ, swish (t : EReal) = r := by
  unfold swish; rw [Ideal.logistic_coe, ← EReal.coe_mul]; exact ⟨_, rfl⟩

/-- A finite sum of products of reals is real. -/
theorem dot_real {n : ℕ} (y w : Fin n → EReal) (hy : ∀ k, ∃ r : ℝ, y k = r) (hw : ∀ k, ∃ r : ℝ, w k = r) :
    ∃ r : ℝ, ∑ k, y k * w k = r := by
  choose ry hry using hy
  choose rw' hrw using hw
  simp only [hry, hrw, ← EReal.coe_mul]
  rw [sum_coe]; exact ⟨_, rfl⟩

/-- The hidden row (reference spelling) of real data is real. -/
theorem hidden_real (x : Fin 768 → EReal) (w1 : Fin 384 → Fin 768 → EReal) (g1 b1 : Fin 768 → EReal)
    (hx : ∀ k, ∃ r : ℝ, x k = r) (hw1 : ∀ j k, ∃ r : ℝ, w1 j k = r) (hg1 : ∀ k, ∃ r : ℝ, g1 k = r)
    (hb1 : ∀ k, ∃ r : ℝ, b1 k = r) (j : Fin 384) : ∃ r : ℝ, hidden (varR c768) x w1 g1 b1 j = r := by
  unfold hidden
  obtain ⟨t, ht⟩ := dot_real (fun k => lnorm (varR c768 x) (mean c768 x) (x k) (g1 k) (b1 k)) (w1 j)
    (lnorm_real (n := 768) (by norm_num) c768 (ofBits_768.trans (by norm_num)) x g1 b1 hx hg1 hb1) (hw1 j)
  rw [ht]; exact swish_real t

/-- On real `x, w1, g1, b1` the network with the variance spelt either way is one function. -/
theorem rowNet_eq (x : Fin 768 → EReal) (w1 : Fin 384 → Fin 768 → EReal) (w2 : Fin 768 → Fin 384 → EReal)
    (g1 b1 : Fin 768 → EReal) (g2 b2 : Fin 384 → EReal)
    (hx : ∀ k, ∃ r : ℝ, x k = r) (hw1 : ∀ j k, ∃ r : ℝ, w1 j k = r) (hg1 : ∀ k, ∃ r : ℝ, g1 k = r)
    (hb1 : ∀ k, ∃ r : ℝ, b1 k = r) :
    rowNet (varK c768) (varK c384) x w1 w2 g1 b1 g2 b2 = rowNet (varR c768) (varR c384) x w1 w2 g1 b1 g2 b2 := by
  have e1 : hidden (varK c768) x w1 g1 b1 = hidden (varR c768) x w1 g1 b1 := by
    unfold hidden; rw [var_eq (n := 768) (by norm_num) c768 (ofBits_768.trans (by norm_num)) x hx]
  unfold rowNet outRow
  rw [e1, var_eq (n := 384) (by norm_num) c384 (ofBits_384.trans (by norm_num)) _ (hidden_real x w1 g1 b1 hx hw1 hg1 hb1)]

/-! ## The whole array -/

/-- The result array as ONE function of the seven argument arrays: entry `(p, q, d)` is the network on row `(p, q)` of
    `X`, read at `d`. `W1` is indexed `(hidden, input)` and `W2` `(output, hidden)`, as the arguments are. -/
def net (var1 : (Fin 768 → EReal) → EReal) (var2 : (Fin 384 → EReal) → EReal)
    (X : (⟨3, ![8, 8192, 768]⟩ : Shape).Idx → EReal) (W1 : (⟨2, ![384, 768]⟩ : Shape).Idx → EReal)
    (W2 : (⟨2, ![768, 384]⟩ : Shape).Idx → EReal) (G1 B1 : (⟨1, ![768]⟩ : Shape).Idx → EReal)
    (G2 B2 : (⟨1, ![384]⟩ : Shape).Idx → EReal) : (⟨3, ![8, 8192, 768]⟩ : Shape).Idx → EReal :=
  fun i => rowNet var1 var2 (fun k => X (ix3 (i 0) (i 1) k)) (fun j k => W1 (ix2 j k)) (fun d j => W2 (ix2 d j))
    (fun k => G1 (ix1 k)) (fun k => B1 (ix1 k)) (fun j => G2 (ix1 j)) (fun j => B2 (ix1 j)) (i 2)

/-- On real `X, W1, G1, B1` the two spellings of the variance give one array. -/
theorem net_eq (X : (⟨3, ![8, 8192, 768]⟩ : Shape).Idx → EReal) (W1 : (⟨2, ![384, 768]⟩ : Shape).Idx → EReal)
    (W2 : (⟨2, ![768, 384]⟩ : Shape).Idx → EReal) (G1 B1 : (⟨1, ![768]⟩ : Shape).Idx → EReal)
    (G2 B2 : (⟨1, ![384]⟩ : Shape).Idx → EReal)
    (hX : ∀ i, ∃ r : ℝ, X i = r) (hW1 : ∀ i, ∃ r : ℝ, W1 i = r) (hG1 : ∀ i, ∃ r : ℝ, G1 i = r)
    (hB1 : ∀ i, ∃ r : ℝ, B1 i = r) :
    net (varK c768) (varK c384) X W1 W2 G1 B1 G2 B2 = net (varR c768) (varR c384) X W1 W2 G1 B1 G2 B2 := by
  funext i
  exact congrFun (rowNet_eq _ _ _ _ _ _ _ (fun k => hX _) (fun j k => hW1 _) (fun k => hG1 _) (fun k => hB1 _)) (i 2)

end Cert.ResLn

end
-- ==== Proof.RefValue.lean ====
/-
  The reference program, read one stage at a time, is the network with the variance spelt as the mean of squared
  deviations: row means and variances over the last axis (sums over `k : Fin 768`, then over `Fin 384`, each divided by
  the axis length), the normalised entry, the two contractions against `W1` and `W2` over their second axes, and
  `t · 1 / (1 + e^{-t})`, which is `t · σ(t)` once the literal `1.0` is read as `1`.
  Each stage lemma is stated at a general index of that stage's shape; every index composition that a broadcast or a
  reduction introduces keeps the leading two coordinates and is closed by unfolding.
-/
import proofs.«166767_j6803228196916_2_alg».proof.Proof.Gen.ReferenceIdeal.Read
import proofs.«166767_j6803228196916_2_alg».proof.Proof.Spec

noncomputable section

namespace Cert.ResLn.Ref

open Cert.ReferenceIdeal Cert.ReferenceIdeal.Read Cert.ResLn
open Idealize.ShloMosaic Idealize.ShloMosaic.ValueIdx
open scoped BigOperators

variable (X : (⟨S8x8192x768, .f32⟩ : BufTy).Contents (Elt Ideal)) (W1 : (⟨S384x768, .f32⟩ : BufTy).Contents (Elt Ideal))
  (W2 : (⟨S768x384, .f32⟩ : BufTy).Contents (Elt Ideal)) (G1 B1 : (⟨S768, .f32⟩ : BufTy).Contents (Elt Ideal))
  (G2 B2 : (⟨S384, .f32⟩ : BufTy).Contents (Elt Ideal))

/-! ## Where each stage reads its operand

Every index map below copies coordinates: a reduction over the last axis reads row `(i 0, i 1)` at `k`; a contraction
reads the left operand's row `(i 0, i 1)` at `k` and the right operand's row `i 2` at `k`; a broadcast of a vector along
the last axis reads it at `i 2`. -/

theorem idx_v0 (j : S8x8192.Idx) (k : Fin 768) : idx_main_v0 j k = ix3 (n0 := 8) (n1 := 8192) (j 0) (j 1) k :=
  funext fun a => by match a with | ⟨0, _⟩ => rfl | ⟨1, _⟩ => rfl | ⟨2, _⟩ => rfl
theorem idx_v7 (j : S8x8192.Idx) (k : Fin 768) : idx_main_v7 j k = ix3 (n0 := 8) (n1 := 8192) (j 0) (j 1) k :=
  funext fun a => by match a with | ⟨0, _⟩ => rfl | ⟨1, _⟩ => rfl | ⟨2, _⟩ => rfl
theorem idx_v18 (q : S1x1x768.Idx) : idx_main_v18 q = ix1 (n := 768) (q 2) :=
  funext fun a => by match a with | ⟨0, _⟩ => rfl
theorem idx_v21 (q : S1x1x768.Idx) : idx_main_v21 q = ix1 (n := 768) (q 2) :=
  funext fun a => by match a with | ⟨0, _⟩ => rfl
theorem lidx_v24 (i : S8x8192x384.Idx) (k : Fin 768) : lidx_main_v24 i k = ix3 (n0 := 8) (n1 := 8192) (i 0) (i 1) k :=
  funext fun a => by match a with | ⟨0, _⟩ => rfl | ⟨1, _⟩ => rfl | ⟨2, _⟩ => rfl
theorem ridx_v24 (i : S8x8192x384.Idx) (k : Fin 768) : ridx_main_v24 i k = ix2 (n0 := 384) (i 2) k :=
  funext fun a => by match a with | ⟨0, _⟩ => rfl | ⟨1, _⟩ => rfl
theorem idx_v50 (q : S1x1x384.Idx) : idx_main_v50 q = ix1 (n := 384) (q 2) :=
  funext fun a => by match a with | ⟨0, _⟩ => rfl
theorem idx_v53 (q : S1x1x384.Idx) : idx_main_v53 q = ix1 (n := 384) (q 2) :=
  funext fun a => by match a with | ⟨0, _⟩ => rfl
theorem lidx_v56 (i : S8x8192x768.Idx) (k : Fin 384) : lidx_main_v56 i k = ix3 (n0 := 8) (n1 := 8192) (i 0) (i 1) k :=
  funext fun a => by match a with | ⟨0, _⟩ => rfl | ⟨1, _⟩ => rfl | ⟨2, _⟩ => rfl
theorem ridx_v56 (i : S8x8192x768.Idx) (k : Fin 384) : ridx_main_v56 i k = ix2 (n0 := 768) (i 2) k :=
  funext fun a => by match a with | ⟨0, _⟩ => rfl | ⟨1, _⟩ => rfl

/-! ## The stages -/

/-- Row `(p, q)` of the input. -/
abbrev row (p : Fin 8) (q : Fin 8192) : Fin 768 → EReal := fun k => X (ix3 p q k)

/-- The first layer's row mean. -/
theorem mean1 (i : S8x8192x1.Idx) : val_main_v3 (F := Ideal) X i = mean c768 (row X (i 0) (i 1)) := by
  simp only [val_main_v3_apply, val_main_v1_apply, val_main_v0_apply, val_main_v2_apply, val_main_cst_0_apply,
    val_main_cst_apply, Ideal.hostDivf_def, Ideal.ofBits_def, Ideal.ofBits_zero_f32, zero_add, idx_v0]
  rfl

/-- The first layer's row variance. -/
theorem var1 (i : S8x8192x1.Idx) : val_main_v10 (F := Ideal) X i = varR c768 (row X (i 0) (i 1)) := by
  simp only [val_main_v10_apply, val_main_v8_apply, val_main_v7_apply, val_main_v9_apply, val_main_cst_2_apply,
    val_main_cst_1_apply, val_main_v6_apply, val_main_v5_apply, val_main_v4_apply, mean1, Ideal.hostDivf_def,
    Ideal.ofBits_def, Ideal.ofBits_zero_f32, zero_add, Ideal.mulf_def, Ideal.subf_def, idx_v7]
  rfl

/-- The first layer's normalised entry. -/
theorem norm1 (i : S8x8192x768.Idx) : val_main_v23 (F := Ideal) X G1 B1 i
    = lnorm (varR c768 (row X (i 0) (i 1))) (mean c768 (row X (i 0) (i 1))) (X i) (G1 (ix1 (i 2))) (B1 (ix1 (i 2))) := by
  simp only [val_main_v23_apply, val_main_v20_apply, val_main_v22_apply, val_main_v21_apply, val_main_v17_apply,
    val_main_v19_apply, val_main_v18_apply, val_main_v12_apply, val_main_v16_apply, val_main_v11_apply,
    val_main_v15_apply, val_main_v14_apply, val_main_v13_apply, val_main_cst_3_apply, mean1, var1, Ideal.addf_def,
    Ideal.mulf_def, Ideal.subf_def, Ideal.hostUnary_rsqrt_def, Ideal.ofBits_def, idx_v18, idx_v21]
  rfl

/-- The hidden entry. -/
theorem hid (i : S8x8192x384.Idx) : val_main_v31 (F := Ideal) X W1 G1 B1 i
    = hidden (varR c768) (row X (i 0) (i 1)) (fun j k => W1 (ix2 j k)) (fun k => G1 (ix1 k)) (fun k => B1 (ix1 k)) (i 2) := by
  simp only [val_main_v31_apply, val_main_v30_apply, val_main_v29_apply, val_main_cst_5_apply, val_main_v28_apply,
    val_main_v27_apply, val_main_cst_4_apply, val_main_v26_apply, val_main_v25_apply, val_main_v24_apply, norm1,
    Ideal.mulf_def, Ideal.hostDivf_def, Ideal.addf_def, Ideal.hostUnary_exp_def, Ideal.hostNegf_def, Ideal.negf_def,
    Ideal.ofBits_def, ofBits_one, lidx_v24, ridx_v24]
  rfl

/-- The hidden row over `(p, q)`. -/
abbrev hrow (p : Fin 8) (q : Fin 8192) : Fin 384 → EReal :=
  hidden (varR c768) (row X p q) (fun j k => W1 (ix2 j k)) (fun k => G1 (ix1 k)) (fun k => B1 (ix1 k))

/-- The second layer's row mean. -/
theorem mean2 (i : S8x8192x1.Idx) : val_main_v35 (F := Ideal) X W1 G1 B1 i = mean c384 (hrow X W1 G1 B1 (i 0) (i 1)) := by
  simp only [val_main_v35_apply, val_main_v33_apply, val_main_v32_apply, val_main_v34_apply, val_main_cst_7_apply,
    val_main_cst_6_apply, hid, Ideal.hostDivf_def, Ideal.ofBits_def, Ideal.ofBits_zero_f32, zero_add]
  rfl

/-- The second layer's row variance. -/
theorem var2 (i : S8x8192x1.Idx) : val_main_v42 (F := Ideal) X W1 G1 B1 i = varR c384 (hrow X W1 G1 B1 (i 0) (i 1)) := by
  simp only [val_main_v42_apply, val_main_v40_apply, val_main_v39_apply, val_main_v41_apply, val_main_cst_9_apply,
    val_main_cst_8_apply, val_main_v38_apply, val_main_v37_apply, val_main_v36_apply, mean2, hid, Ideal.hostDivf_def,
    Ideal.ofBits_def, Ideal.ofBits_zero_f32, zero_add, Ideal.mulf_def, Ideal.subf_def]
  rfl

/-- The second layer's normalised entry. -/
theorem norm2 (i : S8x8192x384.Idx) : val_main_v55 (F := Ideal) X W1 G1 B1 G2 B2 i
    = lnorm (varR c384 (hrow X W1 G1 B1 (i 0) (i 1))) (mean c384 (hrow X W1 G1 B1 (i 0) (i 1)))
        (hrow X W1 G1 B1 (i 0) (i 1) (i 2)) (G2 (ix1 (i 2))) (B2 (ix1 (i 2))) := by
  simp only [val_main_v55_apply, val_main_v52_apply, val_main_v54_apply, val_main_v53_apply, val_main_v49_apply,
    val_main_v51_apply, val_main_v50_apply, val_main_v44_apply, val_main_v48_apply, val_main_v43_apply,
    val_main_v47_apply, val_main_v46_apply, val_main_v45_apply, val_main_cst_10_apply, mean2, var2, hid, Ideal.addf_def,
    Ideal.mulf_def, Ideal.subf_def, Ideal.hostUnary_rsqrt_def, Ideal.ofBits_def, idx_v50, idx_v53]
  rfl

/-- The result entry at `(p, q, d)`. -/
theorem out (p : Fin 8) (q : Fin 8192) (d : Fin 768) : val_main_v64 (F := Ideal) X W1 W2 G1 B1 G2 B2 (ix3 p q d)
    = net (varR c768) (varR c384) X W1 W2 G1 B1 G2 B2 (ix3 p q d) := by
  simp only [val_main_v64_apply, val_main_v63_apply, val_main_v62_apply, val_main_v61_apply, val_main_cst_12_apply,
    val_main_v60_apply, val_main_v59_apply, val_main_cst_11_apply, val_main_v58_apply, val_main_v57_apply,
    val_main_v56_apply, norm2, Ideal.mulf_def, Ideal.hostDivf_def, Ideal.addf_def, Ideal.hostUnary_exp_def,
    Ideal.hostNegf_def, Ideal.negf_def, Ideal.ofBits_def, ofBits_one, lidx_v56, ridx_v56]
  rfl

/-- The reference's result array is the network with the variance as the mean of squared deviations. -/
theorem result_eq : val_main_v64 (F := Ideal) X W1 W2 G1 B1 G2 B2 = net (varR c768) (varR c384) X W1 W2 G1 B1 G2 B2 := by
  funext i
  rw [eq_ix3 i]
  exact out X W1 W2 G1 B1 G2 B2 (i 0) (i 1) (i 2)

end Cert.ResLn.Ref

end
-- ==== Proof.KernelOps.lean ====
/-
  The kernel body's non-pointwise operations, each read at one index `(r, c)` of a two-axis block:
  a sum along the lanes of row `r`; a vector of row statistics viewed as a column; a column spread along the lanes;
  and the two matrix products, each entry a sum over the contracted axis of a row of the left factor against a column
  of the right factor.
-/
import proofs.«166767_j6803228196916_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.ResLn.Ops

open Cert.KernelIdeal Cert.KernelIdeal.Gen
open Idealize.ShloMosaic Idealize.ShloMosaic.ValueIdx
open scoped BigOperators

/-- The sum along axis 1 of an `[a, b]` block, read at row `r`, is the sum of that row's entries. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  exact Finset.sum_congr rfl fun k _ => congrArg src (funext fun x => Fin.ext (by
    match x with | ⟨0, _⟩ => rfl | ⟨1, _⟩ => rfl))

/-- An `[a]` vector viewed as an `[a, 1]` column reads, at `(i, u)`, the vector at `i`. -/
theorem column_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column spread to `[a, b]` reads, at `(p, c)`, the column at `p`. -/
theorem spread_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The left factor's row coordinate in `dot_S1024x768_S768x384_S1024x384_1_0_0_1_n_n` is the output's row. -/
theorem mm1_lhs0 (i : S1024x384.Idx) (q : dot_S1024x768_S768x384_S1024x384_1_0_0_1_n_n.contr.Idx) : (dot_S1024x768_S768x384_S1024x384_1_0_0_1_n_n.lhsIdx i q 0).val = (i 0).val := by
  unfold DotDims.lhsIdx
  rw [dif_neg (show ¬(0 : Fin S1024x768.rank) ∈ dot_S1024x768_S768x384_S1024x384_1_0_0_1_n_n.lhsBatch by decide),
    dif_pos (show (0 : Fin S1024x768.rank) ∈ dot_S1024x768_S768x384_S1024x384_1_0_0_1_n_n.lhsNonContracting by decide)]
  rfl
/-- The right factor's column coordinate in `dot_S1024x768_S768x384_S1024x384_1_0_0_1_n_n` is the output's column. -/
theorem mm1_rhs1 (i : S1024x384.Idx) (q : dot_S1024x768_S768x384_S1024x384_1_0_0_1_n_n.contr.Idx) : (dot_S1024x768_S768x384_S1024x384_1_0_0_1_n_n.rhsIdx i q 1).val = (i 1).val := by
  unfold DotDims.rhsIdx
  rw [dif_neg (show ¬(1 : Fin S768x384.rank) ∈ dot_S1024x768_S768x384_S1024x384_1_0_0_1_n_n.rhsBatch by decide),
    dif_pos (show (1 : Fin S768x384.rank) ∈ dot_S1024x768_S768x384_S1024x384_1_0_0_1_n_n.rhsNonContracting by decide)]
  rfl

/-- The first product `[1024, 768] · [768, 384]` into a zero accumulator, read at `(r, j)`. -/
theorem mm1_apply (A : FVec Ideal S1024x768 .bf16) (B : FVec Ideal S768x384 .bf16) (r : Fin 1024) (j : Fin 384) :
    matmul dot_S1024x768_S768x384_S1024x384_1_0_0_1_n_n none A B (constant S1024x384 .f32 0x00000000#32) (ix2 r j)
      = ∑ k : Fin 768, A (ix2 r k) * B (ix2 k j) := by
  simp only [matmul]
  rw [Ideal.matmul_constant_zero_apply, ← Equiv.sum_comp (contrEquiv1 dot_S1024x768_S768x384_S1024x384_1_0_0_1_n_n 768 rfl rfl).symm]
  refine Finset.sum_congr rfl fun k _ => ?_
  have hk := contrEquiv1_symm_val dot_S1024x768_S768x384_S1024x384_1_0_0_1_n_n 768 rfl rfl k
  have el : dot_S1024x768_S768x384_S1024x384_1_0_0_1_n_n.lhsIdx (ix2 r j) ((contrEquiv1 dot_S1024x768_S768x384_S1024x384_1_0_0_1_n_n 768 rfl rfl).symm k) = ix2 r k :=
    funext fun x => Fin.ext (by
      match x with
      | ⟨0, _⟩ => exact mm1_lhs0 _ _
      | ⟨1, _⟩ => exact (dot_S1024x768_S768x384_S1024x384_1_0_0_1_n_n.lhsIdx_val_of_single rfl _ _).trans hk)
  have er : dot_S1024x768_S768x384_S1024x384_1_0_0_1_n_n.rhsIdx (ix2 r j) ((contrEquiv1 dot_S1024x768_S768x384_S1024x384_1_0_0_1_n_n 768 rfl rfl).symm k) = ix2 k j :=
    funext fun x => Fin.ext (by
      match x with
      | ⟨0, _⟩ => exact (dot_S1024x768_S768x384_S1024x384_1_0_0_1_n_n.rhsIdx_val_of_single rfl _ _).trans hk
      | ⟨1, _⟩ => exact mm1_rhs1 _ _)
  rw [el, er]

/-- The left factor's row coordinate in `dot_S1024x384_S384x768_S1024x768_1_0_0_1_n_n` is the output's row. -/
theorem mm2_lhs0 (i : S1024x768.Idx) (q : dot_S1024x384_S384x768_S1024x768_1_0_0_1_n_n.contr.Idx) : (dot_S1024x384_S384x768_S1024x768_1_0_0_1_n_n.lhsIdx i q 0).val = (i 0).val := by
  unfold DotDims.lhsIdx
  rw [dif_neg (show ¬(0 : Fin S1024x384.rank) ∈ dot_S1024x384_S384x768_S1024x768_1_0_0_1_n_n.lhsBatch by decide),
    dif_pos (show (0 : Fin S1024x384.rank) ∈ dot_S1024x384_S384x768_S1024x768_1_0_0_1_n_n.lhsNonContracting by decide)]
  rfl
/-- The right factor's column coordinate in `dot_S1024x384_S384x768_S1024x768_1_0_0_1_n_n` is the output's column. -/
theorem mm2_rhs1 (i : S1024x768.Idx) (q : dot_S1024x384_S384x768_S1024x768_1_0_0_1_n_n.contr.Idx) : (dot_S1024x384_S384x768_S1024x768_1_0_0_1_n_n.rhsIdx i q 1).val = (i 1).val := by
  unfold DotDims.rhsIdx
  rw [dif_neg (show ¬(1 : Fin S384x768.rank) ∈ dot_S1024x384_S384x768_S1024x768_1_0_0_1_n_n.rhsBatch by decide),
    dif_pos (show (1 : Fin S384x768.rank) ∈ dot_S1024x384_S384x768_S1024x768_1_0_0_1_n_n.rhsNonContracting by decide)]
  rfl

/-- The second product `[1024, 384] · [384, 768]` into a zero accumulator, read at `(r, d)`. -/
theorem mm2_apply (A : FVec Ideal S1024x384 .bf16) (B : FVec Ideal S384x768 .bf16) (r : Fin 1024) (d : Fin 768) :
    matmul dot_S1024x384_S384x768_S1024x768_1_0_0_1_n_n none A B (constant S1024x768 .f32 0x00000000#32) (ix2 r d)
      = ∑ k : Fin 384, A (ix2 r k) * B (ix2 k d) := by
  simp only [matmul]
  rw [Ideal.matmul_constant_zero_apply, ← Equiv.sum_comp (contrEquiv1 dot_S1024x384_S384x768_S1024x768_1_0_0_1_n_n 384 rfl rfl).symm]
  refine Finset.sum_congr rfl fun k _ => ?_
  have hk := contrEquiv1_symm_val dot_S1024x384_S384x768_S1024x768_1_0_0_1_n_n 384 rfl rfl k
  have el : dot_S1024x384_S384x768_S1024x768_1_0_0_1_n_n.lhsIdx (ix2 r d) ((contrEquiv1 dot_S1024x384_S384x768_S1024x768_1_0_0_1_n_n 384 rfl rfl).symm k) = ix2 r k :=
    funext fun x => Fin.ext (by
      match x with
      | ⟨0, _⟩ => exact mm2_lhs0 _ _
      | ⟨1, _⟩ => exact (dot_S1024x384_S384x768_S1024x768_1_0_0_1_n_n.lhsIdx_val_of_single rfl _ _).trans hk)
  have er : dot_S1024x384_S384x768_S1024x768_1_0_0_1_n_n.rhsIdx (ix2 r d) ((contrEquiv1 dot_S1024x384_S384x768_S1024x768_1_0_0_1_n_n 384 rfl rfl).symm k) = ix2 k d :=
    funext fun x => Fin.ext (by
      match x with
      | ⟨0, _⟩ => exact (dot_S1024x384_S384x768_S1024x768_1_0_0_1_n_n.rhsIdx_val_of_single rfl _ _).trans hk
      | ⟨1, _⟩ => exact mm2_rhs1 _ _)
  rw [el, er]

end Cert.ResLn.Ops

end
-- ==== Proof.Blocks.lean ====
/-
  The arrays the kernel's windows stage, as the region finds them, and their blocks.
  Before the region the host flattens the input to `[65536, 768]` (row `p · 8192 + q` is row `(p, q)`), transposes the
  two weight matrices, and views each scale and shift vector as a `[1, n]` row; the changes of float format are the
  identity on the extended reals. The grid has 64 points; point `t` stages rows `t · 1024 … t · 1024 + 1023` of the
  flattened input and writes the same rows of the output, and stages every other operand whole.
-/
import proofs.«166767_j6803228196916_2_alg».proof.Proof.KernelOps
import proofs.«166767_j6803228196916_2_alg».proof.Proof.Spec
import Idealize.ShloMosaic.Lib.StableHlo.Run

set_option maxRecDepth 16384

noncomputable section

namespace Cert.ResLn.Blocks

open Cert.KernelIdeal Cert.KernelIdeal.Gen Cert.ResLn
open Idealize.ShloMosaic Idealize.ShloMosaic.TcCoe Idealize.SL.Sem Idealize.ShloMosaic.StableHlo
open Idealize.ShloMosaic.ValueIdx
open Idealize.ShloMosaic.Pipeline (Dat)
open scoped BigOperators

variable (m : (ℓ : Loc nD τ sig) → Buf (Elt Ideal) ℓ) (ρ : Dev nD → PrngReg)

/-! ## The argument arrays -/

/-- The input, `[8, 8192, 768]`. -/
abbrev argX (c : Dev nD) : S8x8192x768.Idx → EReal := m ((c : Thread nD τ).loc main_arg0)
/-- The first weight matrix, `[384, 768]`: (hidden, input). -/
abbrev argW1 (c : Dev nD) : S384x768.Idx → EReal := m ((c : Thread nD τ).loc main_arg1)
/-- The second weight matrix, `[768, 384]`: (output, hidden). -/
abbrev argW2 (c : Dev nD) : S768x384.Idx → EReal := m ((c : Thread nD τ).loc main_arg2)
/-- The first layer's scale. -/
abbrev argG1 (c : Dev nD) : S768.Idx → EReal := m ((c : Thread nD τ).loc main_arg3)
/-- The first layer's shift. -/
abbrev argB1 (c : Dev nD) : S768.Idx → EReal := m ((c : Thread nD τ).loc main_arg4)
/-- The second layer's scale. -/
abbrev argG2 (c : Dev nD) : S384.Idx → EReal := m ((c : Thread nD τ).loc main_arg5)
/-- The second layer's shift. -/
abbrev argB2 (c : Dev nD) : S384.Idx → EReal := m ((c : Thread nD τ).loc main_arg6)

/-! ## The host operations before the region -/

theorem V_x (c : Dev nD) : V m c main_call0_v0
    = (shapeCast S65536x768 (argX m c) shapeCasts_S8x8192x768_S65536x768 : S65536x768.Idx → EReal) := by
  show StableHlo.after hostOps0 (fun b => m (c, b)) (Proc.devRef .tc main_call0_v0) = _
  after_results; rfl

theorem V_w1 (c : Dev nD) : V m c main_call0_v2
    = (truncf (F := Ideal) .bf16 (transpose S768x384 [1, 0] (argW1 m c) transposes_S384x768_S768x384_1_0 : FVec Ideal S768x384 .f32)
        bitsLt_bf16_f32 : FVec Ideal S768x384 .bf16) := by
  show StableHlo.after hostOps0 (fun b => m (c, b)) (Proc.devRef .tc main_call0_v2) = _
  after_results; rfl

theorem V_w2 (c : Dev nD) : V m c main_call0_v4
    = (truncf (F := Ideal) .bf16 (transpose S384x768 [1, 0] (argW2 m c) transposes_S768x384_S384x768_1_0 : FVec Ideal S384x768 .f32)
        bitsLt_bf16_f32 : FVec Ideal S384x768 .bf16) := by
  show StableHlo.after hostOps0 (fun b => m (c, b)) (Proc.devRef .tc main_call0_v4) = _
  after_results; rfl

theorem V_g1 (c : Dev nD) : V m c main_call0_v6
    = (shapeCast S1x768 (truncf (F := Ideal) .bf16 (argG1 m c : FVec Ideal S768 .f32) bitsLt_bf16_f32 : FVec Ideal S768 .bf16)
        shapeCasts_S768_S1x768 : FVec Ideal S1x768 .bf16) := by
  show StableHlo.after hostOps0 (fun b => m (c, b)) (Proc.devRef .tc main_call0_v6) = _
  after_results; rfl

theorem V_b1 (c : Dev nD) : V m c main_call0_v8
    = (shapeCast S1x768 (truncf (F := Ideal) .bf16 (argB1 m c : FVec Ideal S768 .f32) bitsLt_bf16_f32 : FVec Ideal S768 .bf16)
        shapeCasts_S768_S1x768 : FVec Ideal S1x768 .bf16) := by
  show StableHlo.after hostOps0 (fun b => m (c, b)) (Proc.devRef .tc main_call0_v8) = _
  after_results; rfl

theorem V_g2 (c : Dev nD) : V m c main_call0_v10
    = (shapeCast S1x384 (truncf (F := Ideal) .bf16 (argG2 m c : FVec Ideal S384 .f32) bitsLt_bf16_f32 : FVec Ideal S384 .bf16)
        shapeCasts_S384_S1x384 : FVec Ideal S1x384 .bf16) := by
  show StableHlo.after hostOps0 (fun b => m (c, b)) (Proc.devRef .tc main_call0_v10) = _
  after_results; rfl

theorem V_b2 (c : Dev nD) : V m c main_call0_v12
    = (shapeCast S1x384 (truncf (F := Ideal) .bf16 (argB2 m c : FVec Ideal S384 .f32) bitsLt_bf16_f32 : FVec Ideal S384 .bf16)
        shapeCasts_S384_S1x384 : FVec Ideal S1x384 .bf16) := by
  show StableHlo.after hostOps0 (fun b => m (c, b)) (Proc.devRef .tc main_call0_v12) = _
  after_results; rfl

/-! ## Those arrays read at an index -/

/-- Row `p · 8192 + q` of the flattened input is row `(p, q)`. -/
theorem flat_apply {α : Type} (X : S8x8192x768.Idx → α) (h : S8x8192x768.ShapeCasts S65536x768) (p : Fin 8) (q : Fin 8192)
    (k : Fin 768) (R : Fin 65536) (hR : R.val = p.val * 8192 + q.val) :
    shapeCast S65536x768 X h (ix2 R k) = X (ix3 p q k) :=
  shapeCast_apply X h _ _ (by
    rw [Shape.rowMajor_val_three, Shape.rowMajor_val_two]
    show (p.val * 8192 + q.val) * 768 + k.val = R.val * 768 + k.val
    rw [hR])

/-- Entry `(p, q, d)` of the un-flattened output is entry `(p · 8192 + q, d)`. -/
theorem unflat_apply {α : Type} (Y : S65536x768.Idx → α) (h : S65536x768.ShapeCasts S8x8192x768) (p : Fin 8) (q : Fin 8192)
    (d : Fin 768) (R : Fin 65536) (hR : R.val = p.val * 8192 + q.val) :
    shapeCast S8x8192x768 Y h (ix3 p q d) = Y (ix2 R d) :=
  shapeCast_apply Y h _ _ (by
    rw [Shape.rowMajor_val_three, Shape.rowMajor_val_two]
    show R.val * 768 + d.val = (p.val * 8192 + q.val) * 768 + d.val
    rw [hR])

/-! ## The grid -/

/-- The printed index maps, decided over the 64 points: the input and output windows are at block row `t`, every other
    window at block `(0, 0)`. -/
theorem idx_facts : ∀ t : Fin cfg0.N, win0_0.index t (0 : Fin 2) = t.val ∧ win0_0.index t (1 : Fin 2) = 0
    ∧ win0_7.index t (0 : Fin 2) = t.val ∧ win0_7.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- Row `r` of point `t`'s block is row `t · 1024 + r` of the array. -/
def rowAt (t : Fin cfg0.N) (r : Fin 1024) : Fin 65536 :=
  ⟨t.val * 1024 + r.val, by have := t.isLt; have := r.isLt; have h : cfg0.N = 64 := N_0; omega⟩

/-! ## The windows' blocks, read -/

theorem blk0 (c : Dev nD) (t : Fin cfg0.N) (r : Fin 1024) (k : Fin 768) :
    iblk m c 0 t (ix2 r k) = V m c main_call0_v0 (ix2 (rowAt t r) k) := by
  obtain ⟨e0, e1, -⟩ := idx_facts t
  show V m c main_call0_v0 (((cfg0.win 0).blk t).view.emb (ix2 r k)) = _
  have e : ((cfg0.win 0).blk t).view.emb (ix2 r k) = ix2 (rowAt t r) k := by
    funext a; apply Fin.ext
    match a with
    | ⟨0, _⟩ => show win0_0.index t (0 : Fin 2) * 1024 + 1 * r.val = t.val * 1024 + r.val; omega
    | ⟨1, _⟩ => show win0_0.index t (1 : Fin 2) * 768 + 1 * k.val = k.val; omega
  rw [e]

theorem blk1 (c : Dev nD) (t : Fin cfg0.N) (k : Fin 768) (j : Fin 384) :
    iblk m c 1 t (ix2 k j) = V m c main_call0_v2 (ix2 k j) := by
  obtain ⟨-, -, -, -, e0, e1, -⟩ := idx_facts t
  show V m c main_call0_v2 (((cfg0.win 1).blk t).view.emb (ix2 k j)) = _
  have e : ((cfg0.win 1).blk t).view.emb (ix2 k j) = ix2 k j := by
    funext a; apply Fin.ext
    match a with
    | ⟨0, _⟩ => show win0_1.index t (0 : Fin 2) * 768 + 1 * k.val = k.val; omega
    | ⟨1, _⟩ => show win0_1.index t (1 : Fin 2) * 384 + 1 * j.val = j.val; omega
  rw [e]

theorem blk2 (c : Dev nD) (t : Fin cfg0.N) (j : Fin 384) (d : Fin 768) :
    iblk m c 2 t (ix2 j d) = V m c main_call0_v4 (ix2 j d) := by
  obtain ⟨-, -, -, -, -, -, e0, e1, -⟩ := idx_facts t
  show V m c main_call0_v4 (((cfg0.win 2).blk t).view.emb (ix2 j d)) = _
  have e : ((cfg0.win 2).blk t).view.emb (ix2 j d) = ix2 j d := by
    funext a; apply Fin.ext
    match a with
    | ⟨0, _⟩ => show win0_2.index t (0 : Fin 2) * 384 + 1 * j.val = j.val; omega
    | ⟨1, _⟩ => show win0_2.index t (1 : Fin 2) * 768 + 1 * d.val = d.val; omega
  rw [e]

theorem blk3 (c : Dev nD) (t : Fin cfg0.N) (u : Fin 1) (k : Fin 768) :
    iblk m c 3 t (ix2 u k) = V m c main_call0_v6 (ix2 u k) := by
  obtain ⟨-, -, -, -, -, -, -, -, e0, e1, -⟩ := idx_facts t
  show V m c main_call0_v6 (((cfg0.win 3).blk t).view.emb (ix2 u k)) = _
  have e : ((cfg0.win 3).blk t).view.emb (ix2 u k) = ix2 u k := by
    funext a; apply Fin.ext
    match a with
    | ⟨0, _⟩ => show win0_3.index t (0 : Fin 2) * 1 + 1 * u.val = u.val; omega
    | ⟨1, _⟩ => show win0_3.index t (1 : Fin 2) * 768 + 1 * k.val = k.val; omega
  rw [e]

theorem blk4 (c : Dev nD) (t : Fin cfg0.N) (u : Fin 1) (k : Fin 768) :
    iblk m c 4 t (ix2 u k) = V m c main_call0_v8 (ix2 u k) := by
  obtain ⟨-, -, -, -, -, -, -, -, -, -, e0, e1, -⟩ := idx_facts t
  show V m c main_call0_v8 (((cfg0.win 4).blk t).view.emb (ix2 u k)) = _
  have e : ((cfg0.win 4).blk t).view.emb (ix2 u k) = ix2 u k := by
    funext a; apply Fin.ext
    match a with
    | ⟨0, _⟩ => show win0_4.index t (0 : Fin 2) * 1 + 1 * u.val = u.val; omega
    | ⟨1, _⟩ => show win0_4.index t (1 : Fin 2) * 768 + 1 * k.val = k.val; omega
  rw [e]

theorem blk5 (c : Dev nD) (t : Fin cfg0.N) (u : Fin 1) (j : Fin 384) :
    iblk m c 5 t (ix2 u j) = V m c main_call0_v10 (ix2 u j) := by
  obtain ⟨-, -, -, -, -, -, -, -, -, -, -, -, e0, e1, -⟩ := idx_facts t
  show V m c main_call0_v10 (((cfg0.win 5).blk t).view.emb (ix2 u j)) = _
  have e : ((cfg0.win 5).blk t).view.emb (ix2 u j) = ix2 u j := by
    funext a; apply Fin.ext
    match a with
    | ⟨0, _⟩ => show win0_5.index t (0 : Fin 2) * 1 + 1 * u.val = u.val; omega
    | ⟨1, _⟩ => show win0_5.index t (1 : Fin 2) * 384 + 1 * j.val = j.val; omega
  rw [e]

theorem blk6 (c : Dev nD) (t : Fin cfg0.N) (u : Fin 1) (j : Fin 384) :
    iblk m c 6 t (ix2 u j) = V m c main_call0_v12 (ix2 u j) := by
  obtain ⟨-, -, -, -, -, -, -, -, -, -, -, -, -, -, e0, e1⟩ := idx_facts t
  show V m c main_call0_v12 (((cfg0.win 6).blk t).view.emb (ix2 u j)) = _
  have e : ((cfg0.win 6).blk t).view.emb (ix2 u j) = ix2 u j := by
    funext a; apply Fin.ext
    match a with
    | ⟨0, _⟩ => show win0_6.index t (0 : Fin 2) * 1 + 1 * u.val = u.val; omega
    | ⟨1, _⟩ => show win0_6.index t (1 : Fin 2) * 384 + 1 * j.val = j.val; omega
  rw [e]

end Cert.ResLn.Blocks

end
-- ==== Proof.KernelPayload.lean ====
/-
  The kernel body on one block is the network with the variance spelt as mean of squares minus square of mean.
  The body's arithmetic comes in three pure terms: the hidden block (normalise the input block's rows, multiply by the
  first weight block, `t · σ(t)`), the hidden rows' sums, and the output block (normalise the hidden rows using those
  sums, multiply by the second weight block, `t · σ(t)`, add the input block). Each is read at one entry `(r, c)`:
  every pointwise operation acts entry by entry, a lane sum is the row's sum, a column of row statistics spread along
  the lanes reads the row's statistic, a `[1, n]` row of scale or shift spread over the rows reads its entry `c`, and a
  product's entry is the row–column sum.
-/
import proofs.«166767_j6803228196916_2_alg».proof.Proof.KernelOps
import proofs.«166767_j6803228196916_2_alg».proof.Proof.Spec

noncomputable section

namespace Cert.ResLn.Ker

open Cert.KernelIdeal Cert.KernelIdeal.Gen Cert.ResLn Cert.ResLn.Ops
open Idealize.ShloMosaic Idealize.ShloMosaic.ValueIdx
open scoped BigOperators

theorem rsqrt_apply {s : Shape} {φ : FTy} (v : FVec Ideal s φ) (i : s.Idx) : rsqrt v i = Ideal.rsqrt (v i) := rfl
theorem logistic_apply {s : Shape} {φ : FTy} (v : FVec Ideal s φ) (i : s.Idx) : logistic v i = Ideal.logistic (v i) := rfl
theorem scalar_ofBits (b : BitVec 32) : Scalar.ofBits (F := Ideal) .f32 b = Ideal.ofBits .f32 b := rfl

/-- The sum along the lanes of a `[1024, 768]` block, at row `r`. -/
theorem rowSum768 (src : FVec Ideal S1024x768 .f32) (h : S1024x768.Reduces [1] S1024) (r : Fin 1024) :
    Ideal.reduceAdd h src (ix1 r) = ∑ k : Fin 768, src (ix2 r k) :=
  rowSum_apply src h (.inl rfl) rfl r

/-- The sum along the lanes of a `[1024, 384]` block, at row `r`. -/
theorem rowSum384 (src : FVec Ideal S1024x384 .f32) (h : S1024x384.Reduces [1] S1024) (r : Fin 1024) :
    Ideal.reduceAdd h src (ix1 r) = ∑ k : Fin 384, src (ix2 r k) :=
  rowSum_apply src h (.inl rfl) rfl r

/-- The hidden block at `(r, j)`: the hidden row of the input block's row `r`, at `j`. The weight block is indexed
    `(input, hidden)`. -/
theorem hidden_pay (v0 : FVec Ideal S1024x768 .f32) (v2 v4 : FVec Ideal S1x768 .bf16) (v29 : FVec Ideal S768x384 .bf16)
    (r : Fin 1024) (j : Fin 384) :
    k0_pay3 (F := Ideal) v0 v2 v4 v29 (ix2 r j)
      = hidden (varK c768) (fun k => v0 (ix2 r k)) (fun j k => v29 (ix2 k j)) (fun k => v2 (ix2 (0 : Fin 1) k))
          (fun k => v4 (ix2 (0 : Fin 1) k)) j := by
  unfold k0_pay3 k0_pay2
  delta multiReduction
  simp only [shapeCast_self, mulf_apply, addf_apply, subf_apply, divf_apply, truncf_apply, broadcast_apply, rsqrt_apply,
    logistic_apply, scalar_ofBits, mm1_apply, Ideal.reduceAdd_def, rowSum768, rowSum384, column_apply, spread_apply, broadcastTo_1b_ab_apply]
  rfl

/-- The hidden rows' sums, as a column: at `(r, u)` the sum of hidden row `r`. -/
theorem hsum_pay (v0 : FVec Ideal S1024x768 .f32) (v2 v4 : FVec Ideal S1x768 .bf16) (v29 : FVec Ideal S768x384 .bf16)
    (r : Fin 1024) (u : Fin 1) :
    k0_pay6 (F := Ideal) v0 v2 v4 v29 (ix2 r u) = ∑ j : Fin 384, k0_pay3 (F := Ideal) v0 v2 v4 v29 (ix2 r j) := by
  unfold k0_pay6
  delta multiReduction
  simp only [Ideal.reduceAdd_def, rowSum768, rowSum384, column_apply]

/-- The output block at `(r, d)` from a hidden block `v33` whose row sums are `v39`. The weight block is indexed
    `(hidden, output)`. -/
theorem out_pay (v1 : FVec Ideal S1024x768 .f32) (v33 : FVec Ideal S1024x384 .f32) (v35 v37 : FVec Ideal S1x384 .bf16)
    (v39 : FVec Ideal S1024x1 .f32) (v61 : FVec Ideal S384x768 .bf16) (r : Fin 1024) (d : Fin 768)
    (h39 : v39 (ix2 r (0 : Fin 1)) = ∑ j : Fin 384, v33 (ix2 r j)) :
    k0_pay1 (F := Ideal) v1 v33 v35 v37 v39 v61 (ix2 r d)
      = outRow (varK c384) (fun j => v33 (ix2 r j)) (fun d j => v61 (ix2 j d)) (fun j => v35 (ix2 (0 : Fin 1) j))
          (fun j => v37 (ix2 (0 : Fin 1) j)) (v1 (ix2 r d)) d := by
  unfold k0_pay1
  delta multiReduction
  simp only [shapeCast_self, mulf_apply, addf_apply, subf_apply, divf_apply, truncf_apply, broadcast_apply, rsqrt_apply,
    logistic_apply, scalar_ofBits, mm2_apply, Ideal.reduceAdd_def, rowSum768, rowSum384, column_apply, spread_apply, broadcastTo_1b_ab_apply, h39]
  rfl

theorem hz : (![0, 0] : Fin 2 → Nat) = fun _ => 0 := funext fun a => by fin_cases a <;> rfl

/-- What the body leaves in the output buffer, at `(r, d)`: the network on row `r` of the input block, at `d`. -/
theorem block_eq (x0 : Vec Ideal S1024x768 .f32) (x1 : Vec Ideal S768x384 .bf16) (x2 : Vec Ideal S384x768 .bf16)
    (x3 x4 : Vec Ideal S1x768 .bf16) (x5 x6 : Vec Ideal S1x384 .bf16) (r : Fin 1024) (d : Fin 768) :
    out0_7 (F := Ideal) x0 x1 x2 x3 x4 x5 x6 (ix2 r d)
      = rowNet (varK c768) (varK c384) (fun k => x0 (ix2 r k)) (fun j k => x1 (ix2 k j)) (fun d j => x2 (ix2 j d))
          (fun k => x3 (ix2 (0 : Fin 1) k)) (fun k => x4 (ix2 (0 : Fin 1) k)) (fun j => x5 (ix2 (0 : Fin 1) j))
          (fun j => x6 (ix2 (0 : Fin 1) j)) d := by
  unfold out0_7
  rw [View.canon_unit_zero hz]
  simp only [View.ld_unit_zero (S := S1024x768) hz, View.ld_unit_zero (S := S1x768) hz, View.ld_unit_zero (S := S768x384) hz,
    View.ld_unit_zero (S := S1x384) hz, View.ld_unit_zero (S := S384x768) hz]
  rw [out_pay _ _ _ _ _ _ r d (hsum_pay x0 x3 x4 x1 r 0)]
  unfold rowNet
  have hh : (fun j => k0_pay3 (F := Ideal) x0 x3 x4 x1 (ix2 r j))
      = hidden (varK c768) (fun k => x0 (ix2 r k)) (fun j k => x1 (ix2 k j)) (fun k => x3 (ix2 (0 : Fin 1) k))
          (fun k => x4 (ix2 (0 : Fin 1) k)) := funext fun j => hidden_pay x0 x3 x4 x1 r j
  rw [hh]
  unfold k0_pay2 k0_pay4 k0_pay5
  simp only [shapeCast_self]

end Cert.ResLn.Ker

end
-- ==== Proof.KernelValue.lean ====
/-
  The kernel's result array.
  Point `t` writes back rows `t · 1024 … t · 1024 + 1023` of ONE function of the arrays the region finds: entry `(R, d)`
  is the network (variance as mean of squares minus square of mean) on row `R` of the flattened input, read at `d`. The
  64 blocks tile the `[65536, 768]` output (row `R` lies in the block of point `R / 1024`), so after the run the output
  array is that function; the host then views it as `[8, 8192, 768]`, entry `(p, q, d)` being entry `(p · 8192 + q, d)`.
  Read through the host operations before the region (the flattening of the input, the transposes of the weights, the
  `[1, n]` views of scale and shift), that is `net` of the seven argument arrays.
-/
import proofs.«166767_j6803228196916_2_alg».proof.Proof.Blocks
import proofs.«166767_j6803228196916_2_alg».proof.Proof.KernelPayload

set_option maxRecDepth 16384

noncomputable section

namespace Cert.ResLn.KerValue

open Cert.KernelIdeal Cert.KernelIdeal.Gen Cert.ResLn Cert.ResLn.Blocks
open Idealize.ShloMosaic Idealize.ShloMosaic.TcCoe Idealize.SL.Sem Idealize.ShloMosaic.StableHlo
open Idealize.ShloMosaic.ValueIdx
open Idealize.ShloMosaic.Pipeline (Dat)
open scoped BigOperators

variable (m : (ℓ : Loc nD τ sig) → Buf (Elt Ideal) ℓ) (ρ : Dev nD → PrngReg)

/-! ## One function of the arrays the region finds -/

/-- Entry `(R, d)` of the flattened output. -/
def flatRow (c : Dev nD) (R : Fin 65536) (d : Fin 768) : EReal :=
  rowNet (varK c768) (varK c384) (fun k => V m c main_call0_v0 (ix2 R k)) (fun j k => V m c main_call0_v2 (ix2 k j))
    (fun d j => V m c main_call0_v4 (ix2 j d)) (fun k => V m c main_call0_v6 (ix2 (0 : Fin 1) k))
    (fun k => V m c main_call0_v8 (ix2 (0 : Fin 1) k)) (fun j => V m c main_call0_v10 (ix2 (0 : Fin 1) j))
    (fun j => V m c main_call0_v12 (ix2 (0 : Fin 1) j)) d

/-- The flattened output array. -/
def flatNet (c : Dev nD) : S65536x768.Idx → EReal := fun i => flatRow m c (i 0) (i 1)

/-- Two functions on a two-axis shape that agree at every `(r, d)` are equal. -/
theorem ext_ix2 {a b : ℕ} {α : Type} (A B : (⟨2, ![a, b]⟩ : Shape).Idx → α) (h : ∀ r d, A (ix2 r d) = B (ix2 r d)) :
    A = B :=
  funext fun y => by rw [eq_ix2 y]; exact h _ _

/-! ## What a point writes back -/

theorem flushed_eq (c : Dev nD) (t : Fin cfg0.N) :
    (dats m 0 c).flushed 7 t = ((cfg0.win 7).blk t).view.read (Elt Ideal) (flatNet m c) := by
  show (cfg0.win 7).cut (grid0.coords t) ((dats m 0 c).after 7 t) = _
  rw [after0_7]
  refine ext_ix2 (a := 1024) (b := 768) _ _ fun r d => ?_
  obtain ⟨-, -, e0, e1, -⟩ := idx_facts t
  have e7 : ((cfg0.win 7).blk t).view.emb (ix2 r d) = ix2 (rowAt t r) d := by
    funext a; apply Fin.ext
    match a with
    | ⟨0, _⟩ => show win0_7.index t (0 : Fin 2) * 1024 + 1 * r.val = t.val * 1024 + r.val; omega
    | ⟨1, _⟩ => show win0_7.index t (1 : Fin 2) * 768 + 1 * d.val = d.val; omega
  show out0_7 (iblk m c 0 t) (iblk m c 1 t) (iblk m c 2 t) (iblk m c 3 t) (iblk m c 4 t) (iblk m c 5 t) (iblk m c 6 t)
      (ix2 r d) = flatNet m c (((cfg0.win 7).blk t).view.emb (ix2 r d))
  rw [e7]
  refine (Ker.block_eq (iblk m c 0 t) (iblk m c 1 t) (iblk m c 2 t) (iblk m c 3 t) (iblk m c 4 t) (iblk m c 5 t)
    (iblk m c 6 t) r d).trans ?_
  simp only [blk0 m c t, blk1 m c t, blk2 m c t, blk3 m c t, blk4 m c t, blk5 m c t, blk6 m c t]
  rfl

/-! ## The blocks tile the output -/

theorem mem_blk (t : Fin cfg0.N) (i : S65536x768.Idx) :
    i ∈ ((cfg0.win 7).blk t).view.set ↔ ∀ a : Fin 2, win0_7.index t a * S1024x768.size a ≤ (i a).val
      ∧ (i a).val < win0_7.index t a * S1024x768.size a + S1024x768.size a := by
  show i ∈ ((View.whole main_call0_v13).slice (win0_7.rect t)).set ↔ _
  rw [View.set_slice_whole, Rect.mem_set_unit]
  exact Iff.rfl

theorem cover (i : S65536x768.Idx) :
    ∃ t : Fin cfg0.N, (cfg0.win 7).flush t = true ∧ i ∈ ((cfg0.win 7).blk t).view.set := by
  have hi0 : (i 0).val < 65536 := (i 0).isLt
  have hi1 : (i 1).val < 768 := (i 1).isLt
  have hN : cfg0.N = 64 := N_0
  have ht : (i 0).val / 1024 < cfg0.N := by omega
  obtain ⟨-, -, e0, e1, -⟩ := idx_facts ⟨(i 0).val / 1024, ht⟩
  refine ⟨⟨(i 0).val / 1024, ht⟩, flush0_7 _, ?_⟩
  rw [mem_blk]
  intro a
  match a with
  | ⟨0, _⟩ =>
    show win0_7.index ⟨(i 0).val / 1024, ht⟩ (0 : Fin 2) * 1024 ≤ (i 0).val
      ∧ (i 0).val < win0_7.index ⟨(i 0).val / 1024, ht⟩ (0 : Fin 2) * 1024 + 1024
    rw [e0]
    show (i 0).val / 1024 * 1024 ≤ (i 0).val ∧ (i 0).val < (i 0).val / 1024 * 1024 + 1024
    omega
  | ⟨1, _⟩ =>
    show win0_7.index ⟨(i 0).val / 1024, ht⟩ (1 : Fin 2) * 768 ≤ (i 1).val
      ∧ (i 1).val < win0_7.index ⟨(i 0).val / 1024, ht⟩ (1 : Fin 2) * 768 + 768
    rw [e1]
    omega

/-- The output array after the run. -/
theorem final (c : Dev nD) : (dats m 0 c).arrAt 7 cfg0.N = flatNet m c :=
  (dats m 0 c).arrAt_eq_of_cover 7 (flatNet m c) (fun t _ => flushed_eq m c t) cover

/-! ## The host operation after the region -/

theorem tail_eq (c : Dev nD) : Pipeline.afterTail₀ cfgs (dats m) 0 (V0 m) [hostOps1] c main_v0
    = (shapeCast S8x8192x768 (flatNet m c) shapeCasts_S65536x768_S8x8192x768 : S8x8192x768.Idx → EReal) := by
  have hW : Pipeline.withArrays (cfgs 0).spec c (V0 m c) (fun w => (dats m 0 c).arrAt w (cfgs 0).N)
      (Proc.devRef .tc main_call0_v13) = flatNet m c :=
    (Pipeline.withArrays_arr spec0 launch0.win.arr_inj c _ _ 7).trans (final m c)
  unfold Pipeline.afterTail₀
  show StableHlo.after hostOps1 _ (Proc.devRef .tc main_v0) = _
  after_results
  exact congrArg (fun Y : S65536x768.Idx → EReal =>
    (shapeCast S8x8192x768 Y shapeCasts_S65536x768_S8x8192x768 : S8x8192x768.Idx → EReal)) hW

/-! ## The run -/

/-- Every weakly fair execution terminates with the result array at the un-flattened `flatNet` and the arguments
    unchanged. -/
theorem run_flat : θ_run defs (onTc (τ := τ) (main (F := Ideal))) ⟨m, fun _ => 0, ρ⟩ fun r => ∀ c : Dev nD,
      r.2.mem ((c.tc : Thread nD τ).loc main_v0)
        = (shapeCast S8x8192x768 (flatNet m c) shapeCasts_S65536x768_S8x8192x768 : S8x8192x768.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v0 (Pipeline.mem_restRefs_of main_v0 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

/-! ## Through the host operations before the region -/

/-- The un-flattened result is `net` (variance as mean of squares minus square of mean) of the argument arrays. -/
theorem result_eq (c : Dev nD) :
    (shapeCast S8x8192x768 (flatNet m c) shapeCasts_S65536x768_S8x8192x768 : S8x8192x768.Idx → EReal)
      = net (varK c768) (varK c384) (argX m c) (argW1 m c) (argW2 m c) (argG1 m c) (argB1 m c) (argG2 m c) (argB2 m c) := by
  funext i
  obtain ⟨p, q, d, rfl⟩ : ∃ (p : Fin 8) (q : Fin 8192) (d : Fin 768), i = ix3 p q d := ⟨i 0, i 1, i 2, eq_ix3 i⟩
  have hR : p.val * 8192 + q.val < 65536 := by
    have h0 : p.val < 8 := p.isLt
    have h1 : q.val < 8192 := q.isLt
    omega
  rw [unflat_apply (flatNet m c) shapeCasts_S65536x768_S8x8192x768 p q d ⟨p.val * 8192 + q.val, hR⟩ rfl]
  show flatRow m c ⟨p.val * 8192 + q.val, hR⟩ d = _
  unfold flatRow
  have hx : ∀ k : Fin 768, shapeCast S65536x768 (argX m c) shapeCasts_S8x8192x768_S65536x768
      (ix2 (⟨p.val * 8192 + q.val, hR⟩ : Fin 65536) k) = argX m c (ix3 p q k) :=
    fun k => flat_apply _ _ p q k _ rfl
  have hw1 : ∀ (k : Fin 768) (j : Fin 384),
      transpose S768x384 [1, 0] (argW1 m c) transposes_S384x768_S768x384_1_0 (ix2 k j) = argW1 m c (ix2 j k) :=
    fun k j => transpose_ix2_apply _ _ k j
  have hw2 : ∀ (j : Fin 384) (d : Fin 768),
      transpose S384x768 [1, 0] (argW2 m c) transposes_S768x384_S384x768_1_0 (ix2 j d) = argW2 m c (ix2 d j) :=
    fun j d => transpose_ix2_apply _ _ j d
  rw [V_x m c, V_w1 m c, V_w2 m c, V_g1 m c, V_b1 m c, V_g2 m c, V_b2 m c]
  simp only [hx, truncf_apply, hw1, hw2, shapeCast_a_1a_apply]
  rfl

end Cert.ResLn.KerValue

end
-- ==== Proof.Finite.lean ====
/-
  The precondition, decoded: every entry of every argument array is a real.
  The predicate is the conjunction, over the seven arrays, of "every entry's absolute value is below `+∞`". An extended
  real `x` with `max x (-x) < ⊤` is neither `⊤` nor `⊥`, hence a real.
-/
import proofs.«166767_j6803228196916_2_alg».proof.Proof.Gen.Pre_finite_inputs
import Idealize.ShloMosaic.Lib.ReduceAll
import Idealize.ShloMosaic.Lib.Affine
import Idealize.ShloMosaic.Lib.ValueIdx
import Idealize.ShloMosaic.PureOps.Ideal
import Idealize.ShloMosaic.PureOps.Ideal.Laws

noncomputable section

namespace Cert.ResLn.Finite

open Cert.Pre_finite_inputs Idealize.ShloMosaic

instance : Subsingleton S_.Idx := ⟨fun _ _ => funext fun d => d.elim0⟩

/-- The pattern `0x7F800000` denotes `+∞`. -/
theorem ofBits_inf : Ideal.ofBits .f32 0x7F800000#32 = ⊤ := by
  simp [Ideal.ofBits, Ideal.ieee]

/-- The ordered comparison `<` answering 1 is the order's `<`. -/
theorem lt_of_cmp_olt {a b : EReal} (h : Ideal.cmp .olt a b = 1#1) : a < b := by
  unfold Ideal.cmp at h
  by_contra hn
  simp [hn] at h

/-- An extended real whose absolute value is below `+∞` is a real. -/
theorem real_of_abs_lt_top (x : EReal) (h : max x (-x) < ⊤) : ∃ r : ℝ, x = r := by
  have h1 : x ≠ ⊤ := fun e => by subst e; simp at h
  have h2 : x ≠ ⊥ := fun e => by subst e; simp at h
  exact ⟨x.toReal, (EReal.coe_toReal h1 h2).symm⟩

/-- One conjunct of the predicate: if `all(|X| < +∞)` is 1, every entry of `X` is a real. -/
theorem all_real {s : Shape} {axes : List (Fin s.rank)} (X : FVec Ideal s .f32)
    (hb : S_.BroadcastsInDim s (![] : Fin S_.rank → Fin s.rank)) (hr : s.ReducesTo axes S_) (hu : 0 < S_.numel)
    (h : Host.reduce IntOp.andi
        (cmpf .olt (Host.absf X) (broadcastInDim s ![] hb (constant (F := Ideal) S_ .f32 0x7F800000#32)))
        (constantI S_ 1 1#1) hr hu ValueIdx.ix0 = 1#1) (i : s.Idx) : ∃ r : ℝ, X i = r := by
  have e := Host.reduce_andi_all _ _ hr hu ValueIdx.ix0 h i
  have e' : Ideal.cmp .olt (max (X i) (-(X i))) (Ideal.ofBits .f32 0x7F800000#32) = 1#1 := e
  rw [ofBits_inf] at e'
  exact real_of_abs_lt_top _ (lt_of_cmp_olt e')

/-- The precondition gives: every entry of each of the seven arrays is a real. -/
theorem real_of_pre (X : FVec Ideal S8x8192x768 .f32) (W1 : FVec Ideal S384x768 .f32) (W2 : FVec Ideal S768x384 .f32)
    (G1 B1 : FVec Ideal S768 .f32) (G2 B2 : FVec Ideal S384 .f32)
    (h : fn (F := Ideal) X W1 W2 G1 B1 G2 B2 = fun _ => 1#1) :
    (∀ i, ∃ r : ℝ, X i = r) ∧ (∀ i, ∃ r : ℝ, W1 i = r) ∧ (∀ i, ∃ r : ℝ, W2 i = r) ∧ (∀ i, ∃ r : ℝ, G1 i = r)
      ∧ (∀ i, ∃ r : ℝ, B1 i = r) ∧ (∀ i, ∃ r : ℝ, G2 i = r) ∧ (∀ i, ∃ r : ℝ, B2 i = r) := by
  have h0 := congrFun h ValueIdx.ix0
  dsimp only [fn, fn_part1] at h0
  obtain ⟨h5, hB2⟩ := IntOp.andi_eq_one.mp h0
  obtain ⟨h4, hG2⟩ := IntOp.andi_eq_one.mp h5
  obtain ⟨h3, hB1⟩ := IntOp.andi_eq_one.mp h4
  obtain ⟨h2, hG1⟩ := IntOp.andi_eq_one.mp h3
  obtain ⟨h1, hW2⟩ := IntOp.andi_eq_one.mp h2
  obtain ⟨hX, hW1⟩ := IntOp.andi_eq_one.mp h1
  exact ⟨all_real X _ _ _ hX, all_real W1 _ _ _ hW1, all_real W2 _ _ _ hW2, all_real G1 _ _ _ hG1,
    all_real B1 _ _ _ hB1, all_real G2 _ _ _ hG2, all_real B2 _ _ _ hB2⟩

end Cert.ResLn.Finite

end
-- ==== Proof.lean ====
/- The claim: a two-layer residual network — normalise each row of 768, contract with a 384 × 768 matrix, `t · σ(t)`,
   normalise each row of 384, contract with a 768 × 384 matrix, `t · σ(t)`, add the input — computed blockwise by the
   kernel over 64 row blocks of the flattened input, equals the reference's whole-array computation on the extended
   reals, whenever every input entry is finite.
   The two programs differ in ONE piece of arithmetic: the row variance is the mean of squares minus the square of the
   mean in the kernel and the mean of squared deviations in the reference. On real rows, with the divisor equal to the
   row length, these are one number (Proof/Spec.lean `var_eq`); the first layer's rows are real by the precondition
   (Proof/Finite.lean), the second layer's because a normalised real row, a finite sum of products of reals and
   `t · σ(t)` of a real are real (Proof/Spec.lean `hidden_real`). Everything else is the same operation on both sides:
   changes of float format are the identity, the kernel's matrix product into a zero accumulator and the host's
   contraction are one sum, a lane sum and a host sum are one sum, and `σ` is `1 / (1 + e^{-t})` in both.
   Modules: Proof/Spec.lean (the network as a function of rows and of whole arrays, and the algebra), Proof/RefValue.lean
   (the reference's result is that function), Proof/KernelOps.lean and Proof/KernelPayload.lean (the kernel body on a
   block is that function on the block's rows), Proof/Blocks.lean and Proof/KernelValue.lean (the blocks tile the
   output; the host operations around the region), Proof/Finite.lean (the precondition decoded). -/
import proofs.«166767_j6803228196916_2_alg».proof.Defs
import proofs.«166767_j6803228196916_2_alg».proof.Proof.Gen.Kernel
import proofs.«166767_j6803228196916_2_alg».proof.Proof.Gen.Kernel.Skeleton
import proofs.«166767_j6803228196916_2_alg».proof.Proof.Gen.Kernel.Launch
import proofs.«166767_j6803228196916_2_alg».proof.Proof.Gen.Kernel.Points
import proofs.«166767_j6803228196916_2_alg».proof.Proof.Gen.Kernel.Frame
import proofs.«166767_j6803228196916_2_alg».proof.Proof.Gen.KernelIdeal
import proofs.«166767_j6803228196916_2_alg».proof.Proof.Gen.KernelIdeal.Skeleton
import proofs.«166767_j6803228196916_2_alg».proof.Proof.Gen.KernelIdeal.Launch
import proofs.«166767_j6803228196916_2_alg».proof.Proof.Gen.KernelIdeal.Points
import proofs.«166767_j6803228196916_2_alg».proof.Proof.Gen.KernelIdeal.Frame
import proofs.«166767_j6803228196916_2_alg».proof.Proof.Gen.ReferenceIdeal
import proofs.«166767_j6803228196916_2_alg».proof.Proof.Gen.Pre_finite_inputs
import proofs.«166767_j6803228196916_2_alg».proof.Proof.Gen.ReferenceIdeal.Run
import proofs.«166767_j6803228196916_2_alg».proof.Proof.Gen.ReferenceIdeal.Read
import proofs.«166767_j6803228196916_2_alg».proof.Proof.Spec
import proofs.«166767_j6803228196916_2_alg».proof.Proof.RefValue
import proofs.«166767_j6803228196916_2_alg».proof.Proof.KernelValue
import proofs.«166767_j6803228196916_2_alg».proof.Proof.Finite
import Idealize.ShloMosaic.Adequacy
import Idealize.ShloMosaic.Init

noncomputable section

namespace Cert.Proof

open Idealize.ShloMosaic Idealize.SL.Sem Cert.ResLn

/-- The word-level kernel runs and keeps its arguments: the generated frame. -/
theorem frame_k : Cert.frame_Kernel := fun m ρ _ => Cert.Kernel.Gen.frame m ρ

/-- The idealized kernel runs and keeps its arguments: the generated frame. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the result array at the network (variance as mean of squared deviations) of the argument
    arrays: the reference by reading its stages, the kernel through its blocks and then the variance identity on the
    real rows the precondition and the first layer provide. -/
theorem algebraic : Cert.algebraic_KernelIdeal_ReferenceIdeal := by
  intro m ρ m' ρ' hpre hagree
  refine ⟨fun c => net (varR c768) (varR c384) (Blocks.argX m c) (Blocks.argW1 m c) (Blocks.argW2 m c) (Blocks.argG1 m c)
    (Blocks.argB1 m c) (Blocks.argG2 m c) (Blocks.argB2 m c), ?_, ?_⟩
  · refine (θ_run Cert.KernelIdeal.defs _ _).mono (fun _ h c => ⟨(h c).1.trans ?_, (h c).2⟩) (KerValue.run_flat m ρ)
    rw [KerValue.result_eq]
    obtain ⟨hX, hW1, -, hG1, hB1, -⟩ := Finite.real_of_pre _ _ _ _ _ _ _ (hpre c)
    exact net_eq _ _ _ _ _ _ _ hX hW1 hG1 hB1
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v64_eq, Ref.result_eq, (hagree c).1, (hagree c).2.1, (hagree c).2.2.1,
      (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts,
  Cert.Pre_finite_inputs.Gen.facts, frame_k, frame_ki, frame_ri, preserves, algebraic⟩

end Cert.Proof

end
